-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v89)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v89) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v117) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x300 : Shape := ⟨2, ![100000, 300]⟩
abbrev S2x1600000 : Shape := ⟨2, ![2, 1600000]⟩
abbrev S300x128 : Shape := ⟨2, ![300, 128]⟩
abbrev S128 : Shape := ⟨1, ![128]⟩
abbrev S4x128x128 : Shape := ⟨3, ![4, 128, 128]⟩
abbrev S4x128 : Shape := ⟨2, ![4, 128]⟩
abbrev S_ : Shape := ⟨0, ![]⟩

class Facts : Prop where
  bcast_S_S100000x300 : S_.BroadcastsInDim S100000x300 (![] : Fin 0 → Fin S100000x300.rank)
  reducesTo_S100000x300_S_d0_1 : S100000x300.ReducesTo [0, 1] S_
  h_S_ : 0 < S_.numel
  bcast_S_S300x128 : S_.BroadcastsInDim S300x128 (![] : Fin 0 → Fin S300x128.rank)
  reducesTo_S300x128_S_d0_1 : S300x128.ReducesTo [0, 1] S_
  bcast_S_S128 : S_.BroadcastsInDim S128 (![] : Fin 0 → Fin S128.rank)
  reducesTo_S128_S_d0 : S128.ReducesTo [0] S_
  bcast_S_S4x128x128 : S_.BroadcastsInDim S4x128x128 (![] : Fin 0 → Fin S4x128x128.rank)
  reducesTo_S4x128x128_S_d0_1_2 : S4x128x128.ReducesTo [0, 1, 2] S_
  bcast_S_S4x128 : S_.BroadcastsInDim S4x128 (![] : Fin 0 → Fin S4x128.rank)
  reducesTo_S4x128_S_d0_1 : S4x128.ReducesTo [0, 1] S_

variable [Facts]

def fn_part1 {F : FTy → Type} [FloatOps F] (main_arg5 : FVec F S4x128 .f32) (main_arg6 : FVec F S4x128x128 .f32) (main_v13 : IVec S_ 1) (main_v16 : IVec S4x128x128 1) : IVec S_ 1 :=
  let main_c_5 : IVec S_ 1 := constantI S_ 1 1#1
  let main_v17 : IVec S_ 1 := (fun x v => Host.reduce IntOp.andi x v reducesTo_S4x128x128_S_d0_1_2 h_S_) main_v16 main_c_5
  let main_v18 : IVec S_ 1 := andi main_v13 main_v17
  let main_v19 : FVec F S4x128 .f32 := Host.absf main_arg5
  let main_cst_6 : FVec F S_ .f32 := constant S_ .f32 0x7F800000#32
  let main_v20 : FVec F S4x128 .f32 := broadcastInDim S4x128 ![] bcast_S_S4x128 main_cst_6
  let main_v21 : IVec S4x128 1 := cmpf .olt main_v19 main_v20
  let main_c_7 : IVec S_ 1 := constantI S_ 1 1#1
  let main_v22 : IVec S_ 1 := (fun x v => Host.reduce IntOp.andi x v reducesTo_S4x128_S_d0_1 h_S_) main_v21 main_c_7
  let main_v23 : IVec S_ 1 := andi main_v18 main_v22
  let main_v24 : FVec F S4x128x128 .f32 := Host.absf main_arg6
  let main_cst_8 : FVec F S_ .f32 := constant S_ .f32 0x7F800000#32
  let main_v25 : FVec F S4x128x128 .f32 := broadcastInDim S4x128x128 ![] bcast_S_S4x128x128 main_cst_8
  let main_v26 : IVec S4x128x128 1 := cmpf .olt main_v24 main_v25
  let main_c_9 : IVec S_ 1 := constantI S_ 1 1#1
  let main_v27 : IVec S_ 1 := (fun x v => Host.reduce IntOp.andi x v reducesTo_S4x128x128_S_d0_1_2 h_S_) main_v26 main_c_9
  let main_v28 : IVec S_ 1 := andi main_v23 main_v27
  main_v28

def fn {F : FTy → Type} [FloatOps F] (main_arg0 : FVec F S100000x300 .f32) (main_arg1 : IVec S2x1600000 32) (main_arg2 : FVec F S300x128 .f32) (main_arg3 : FVec F S128 .f32) (main_arg4 : FVec F S4x128x128 .f32) (main_arg5 : FVec F S4x128 .f32) (main_arg6 : FVec F S4x128x128 .f32) : IVec S_ 1 :=
  let main_v0 : FVec F S100000x300 .f32 := Host.absf main_arg0
  let main_cst : FVec F S_ .f32 := constant S_ .f32 0x7F800000#32
  let main_v1 : FVec F S100000x300 .f32 := broadcastInDim S100000x300 ![] bcast_S_S100000x300 main_cst
  let main_v2 : IVec S100000x300 1 := cmpf .olt main_v0 main_v1
  let main_c : IVec S_ 1 := constantI S_ 1 1#1
  let main_v3 : IVec S_ 1 := (fun x v => Host.reduce IntOp.andi x v reducesTo_S100000x300_S_d0_1 h_S_) main_v2 main_c
  let main_v4 : FVec F S300x128 .f32 := Host.absf main_arg2
  let main_cst_0 : FVec F S_ .f32 := constant S_ .f32 0x7F800000#32
  let main_v5 : FVec F S300x128 .f32 := broadcastInDim S300x128 ![] bcast_S_S300x128 main_cst_0
  let main_v6 : IVec S300x128 1 := cmpf .olt main_v4 main_v5
  let main_c_1 : IVec S_ 1 := constantI S_ 1 1#1
  let main_v7 : IVec S_ 1 := (fun x v => Host.reduce IntOp.andi x v reducesTo_S300x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S4x128x128 .f32 := Host.absf main_arg4
  let main_cst_4 : FVec F S_ .f32 := constant S_ .f32 0x7F800000#32
  let main_v15 : FVec F S4x128x128 .f32 := broadcastInDim S4x128x128 ![] bcast_S_S4x128x128 main_cst_4
  let main_v16 : IVec S4x128x128 1 := cmpf .olt main_v14 main_v15
  fn_part1 (F := F) main_arg5 main_arg6 main_v13 main_v16
-- ==== Kernel.lean ====
abbrev S100000x300 : Shape := ⟨2, ![100000, 300]⟩
abbrev S2x1600000 : Shape := ⟨2, ![2, 1600000]⟩
abbrev S300x128 : Shape := ⟨2, ![300, 128]⟩
abbrev S128 : Shape := ⟨1, ![128]⟩
abbrev S4x128x128 : Shape := ⟨3, ![4, 128, 128]⟩
abbrev S4x128 : Shape := ⟨2, ![4, 128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x128 : Shape := ⟨2, ![100000, 128]⟩
abbrev S5000x300 : Shape := ⟨2, ![5000, 300]⟩
abbrev S5000x128 : Shape := ⟨2, ![5000, 128]⟩
abbrev S1x128 : Shape := ⟨2, ![1, 128]⟩
abbrev S1600000x128 : Shape := ⟨2, ![1600000, 128]⟩
abbrev S1x128x128 : Shape := ⟨3, ![1, 128, 128]⟩
abbrev S128x128 : Shape := ⟨2, ![128, 128]⟩

abbrev nBuf : Space → Nat
  | .hbm => 113
  | .vmem => 42
  | .smem => 0
  | _ => 0

abbrev bufTy : (tb : Table) → Fin (tcTables nBuf tb) → BufTy
  | .hbm, ⟨0, _⟩ => ⟨S100000x300, .f32⟩
  | .hbm, ⟨1, _⟩ => ⟨S2x1600000, .i32⟩
  | .hbm, ⟨2, _⟩ => ⟨S300x128, .f32⟩
  | .hbm, ⟨3, _⟩ => ⟨S128, .f32⟩
  | .hbm, ⟨4, _⟩ => ⟨S4x128x128, .f32⟩
  | .hbm, ⟨5, _⟩ => ⟨S4x128, .f32⟩
  | .hbm, ⟨6, _⟩ => ⟨S4x128x128, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S_, .f32⟩
  | .hbm, ⟨12, _⟩ => ⟨S1600000, .f32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S100000x1, .f32⟩
  | .hbm, ⟨24, _⟩ => ⟨S100000x128, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x128, .f32⟩
  | .hbm, ⟨34, _⟩ => ⟨S_, .f32⟩
  | .hbm, ⟨35, _⟩ => ⟨S100000x128, .f32⟩
  | .hbm, ⟨36, _⟩ => ⟨S1600000x1, .i32⟩
  | .hbm, ⟨37, _⟩ => ⟨S100000x128, .f32⟩
  | .hbm, ⟨38, _⟩ => ⟨S100000x128, .f32⟩
  | .hbm, ⟨39, _⟩ => ⟨S100000x128, .f32⟩
  | .hbm, ⟨40, _⟩ => ⟨S1x128x128, .f32⟩
  | .hbm, ⟨41, _⟩ => ⟨S128x128, .f32⟩
  | .hbm, ⟨42, _⟩ => ⟨S1x128x128, .f32⟩
  | .hbm, ⟨43, _⟩ => ⟨S128x128, .f32⟩
  | .hbm, ⟨44, _⟩ => ⟨S1x128, .f32⟩
  | .hbm, ⟨45, _⟩ => ⟨S128, .f32⟩
  | .hbm, ⟨46, _⟩ => ⟨S100000x128, .f32⟩
  | .hbm, ⟨47, _⟩ => ⟨S_, .i32⟩
  | .hbm, ⟨48, _⟩ => ⟨S1600000, .i32⟩
  | .hbm, ⟨49, _⟩ => ⟨S1600000, .i1⟩
  | .hbm, ⟨50, _⟩ => ⟨S_, .i32⟩
  | .hbm, ⟨51, _⟩ => ⟨S1600000, .i32⟩
  | .hbm, ⟨52, _⟩ => ⟨S1600000, .i32⟩
  | .hbm, ⟨53, _⟩ => ⟨S1600000, .i32⟩
  | .hbm, ⟨54, _⟩ => ⟨S1600000x1, .i32⟩
  | .hbm, ⟨55, _⟩ => ⟨S1600000x128, .f32⟩
  | .hbm, ⟨56, _⟩ => ⟨S_, .f32⟩
  | .hbm, ⟨57, _⟩ => ⟨S100000x128, .f32⟩
  | .hbm, ⟨58, _⟩ => ⟨S1600000x1, .i32⟩
  | .hbm, ⟨59, _⟩ => ⟨S100000x128, .f32⟩
  | .hbm, ⟨60, _⟩ => ⟨S100000x128, .f32⟩
  | .hbm, ⟨61, _⟩ => ⟨S100000x128, .f32⟩
  | .hbm, ⟨62, _⟩ => ⟨S1x128x128, .f32⟩
  | .hbm, ⟨63, _⟩ => ⟨S128x128, .f32⟩
  | .hbm, ⟨64, _⟩ => ⟨S1x128x128, .f32⟩
  | .hbm, ⟨65, _⟩ => ⟨S128x128, .f32⟩
  | .hbm, ⟨66, _⟩ => ⟨S1x128, .f32⟩
  | .hbm, ⟨67, _⟩ => ⟨S128, .f32⟩
  | .hbm, ⟨68, _⟩ => ⟨S100000x128, .f32⟩
  | .hbm, ⟨69, _⟩ => ⟨S_, .i32⟩
  | .hbm, ⟨70, _⟩ => ⟨S1600000, .i32⟩
  | .hbm, ⟨71, _⟩ => ⟨S1600000, .i1⟩
  | .hbm, ⟨72, _⟩ => ⟨S_, .i32⟩
  | .hbm, ⟨73, _⟩ => ⟨S1600000, .i32⟩
  | .hbm, ⟨74, _⟩ => ⟨S1600000, .i32⟩
  | .hbm, ⟨75, _⟩ => ⟨S1600000, .i32⟩
  | .hbm, ⟨76, _⟩ => ⟨S1600000x1, .i32⟩
  | .hbm, ⟨77, _⟩ => ⟨S1600000x128, .f32⟩
  | .hbm, ⟨78, _⟩ => ⟨S_, .f32⟩
  | .hbm, ⟨79, _⟩ => ⟨S100000x128, .f32⟩
  | .hbm, ⟨80, _⟩ => ⟨S1600000x1, .i32⟩
  | .hbm, ⟨81, _⟩ => ⟨S100000x128, .f32⟩
  | .hbm, ⟨82, _⟩ => ⟨S100000x128, .f32⟩
  | .hbm, ⟨83, _⟩ => ⟨S100000x128, .f32⟩
  | .hbm, ⟨84, _⟩ => ⟨S1x128x128, .f32⟩
  | .hbm, ⟨85, _⟩ => ⟨S128x128, .f32⟩
  | .hbm, ⟨86, _⟩ => ⟨S1x128x128, .f32⟩
  | .hbm, ⟨87, _⟩ => ⟨S128x128, .f32⟩
  | .hbm, ⟨88, _⟩ => ⟨S1x128, .f32⟩
  | .hbm, ⟨89, _⟩ => ⟨S128, .f32⟩
  | .hbm, ⟨90, _⟩ => ⟨S100000x128, .f32⟩
  | .hbm, ⟨91, _⟩ => ⟨S_, .i32⟩
  | .hbm, ⟨92, _⟩ => ⟨S1600000, .i32⟩
  | .hbm, ⟨93, _⟩ => ⟨S1600000, .i1⟩
  | .hbm, ⟨94, _⟩ => ⟨S_, .i32⟩
  | .hbm, ⟨95, _⟩ => ⟨S1600000, .i32⟩
  | .hbm, ⟨96, _⟩ => ⟨S1600000, .i32⟩
  | .hbm, ⟨97, _⟩ => ⟨S1600000, .i32⟩
  | .hbm, ⟨98, _⟩ => ⟨S1600000x1, .i32⟩
  | .hbm, ⟨99, _⟩ => ⟨S1600000x128, .f32⟩
  | .hbm, ⟨100, _⟩ => ⟨S_, .f32⟩
  | .hbm, ⟨101, _⟩ => ⟨S100000x128, .f32⟩
  | .hbm, ⟨102, _⟩ => ⟨S1600000x1, .i32⟩
  | .hbm, ⟨103, _⟩ => ⟨S100000x128, .f32⟩
  | .hbm, ⟨104, _⟩ => ⟨S100000x128, .f32⟩
  | .hbm, ⟨105, _⟩ => ⟨S100000x128, .f32⟩
  | .hbm, ⟨106, _⟩ => ⟨S1x128x128, .f32⟩
  | .hbm, ⟨107, _⟩ => ⟨S128x128, .f32⟩
  | .hbm, ⟨108, _⟩ => ⟨S1x128x128, .f32⟩
  | .hbm, ⟨109, _⟩ => ⟨S128x128, .f32⟩
  | .hbm, ⟨110, _⟩ => ⟨S1x128, .f32⟩
  | .hbm, ⟨111, _⟩ => ⟨S128, .f32⟩
  | .hbm, ⟨112, _⟩ => ⟨S100000x128, .f32⟩
  | .local _ .vmem, ⟨0, _⟩ => ⟨S5000x300, .f32⟩
  | .local _ .vmem, ⟨1, _⟩ => ⟨S5000x300, .f32⟩
  | .local _ .vmem, ⟨2, _⟩ => ⟨S300x128, .f32⟩
  | .local _ .vmem, ⟨3, _⟩ => ⟨S128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S128x128, .f32⟩
  | .local _ .vmem, ⟨11, _⟩ => ⟨S128x128, .f32⟩
  | .local _ .vmem, ⟨12, _⟩ => ⟨S128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S128x128, .f32⟩
  | .local _ .vmem, ⟨20, _⟩ => ⟨S128x128, .f32⟩
  | .local _ .vmem, ⟨21, _⟩ => ⟨S128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S128x128, .f32⟩
  | .local _ .vmem, ⟨29, _⟩ => ⟨S128x128, .f32⟩
  | .local _ .vmem, ⟨30, _⟩ => ⟨S128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S128x128, .f32⟩
  | .local _ .vmem, ⟨38, _⟩ => ⟨S128x128, .f32⟩
  | .local _ .vmem, ⟨39, _⟩ => ⟨S128, .f32⟩
  | .local _ .vmem, ⟨40, _⟩ => ⟨S5000x128, .f32⟩
  | .local _ .vmem, ⟨41, _⟩ => ⟨S5000x128, .f32⟩
  | _, _ => ⟨S100000x300, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c : Ref sig .tc := ⟨.hbm, 25, rfl⟩
abbrev main_v14 : Ref sig .tc := ⟨.hbm, 26, rfl⟩
abbrev main_v15 : Ref sig .tc := ⟨.hbm, 27, rfl⟩
abbrev main_c_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_c_5 : Ref sig .tc := ⟨.hbm, 47, rfl⟩
abbrev main_v33 : Ref sig .tc := ⟨.hbm, 48, rfl⟩
abbrev main_v34 : Ref sig .tc := ⟨.hbm, 49, rfl⟩
abbrev main_c_6 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_7 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_c_8 : Ref sig .tc := ⟨.hbm, 69, rfl⟩
abbrev main_v52 : Ref sig .tc := ⟨.hbm, 70, rfl⟩
abbrev main_v53 : Ref sig .tc := ⟨.hbm, 71, rfl⟩
abbrev main_c_9 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_cst_10 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_c_11 : Ref sig .tc := ⟨.hbm, 91, rfl⟩
abbrev main_v71 : Ref sig .tc := ⟨.hbm, 92, rfl⟩
abbrev main_v72 : Ref sig .tc := ⟨.hbm, 93, rfl⟩
abbrev main_c_12 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_cst_13 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg5_0 : Ref sig .tc := ⟨.vmem, 31, rfl⟩
abbrev cc3_stg5_1 : Ref sig .tc := ⟨.vmem, 32, rfl⟩
abbrev cc4_stg0_0 : Ref sig .tc := ⟨.vmem, 33, rfl⟩
abbrev cc4_stg0_1 : Ref sig .tc := ⟨.vmem, 34, rfl⟩
abbrev cc4_stg1_0 : Ref sig .tc := ⟨.vmem, 35, rfl⟩
abbrev cc4_stg1_1 : Ref sig .tc := ⟨.vmem, 36, rfl⟩
abbrev cc4_stg2_0 : Ref sig .tc := ⟨.vmem, 37, rfl⟩
abbrev cc4_stg3_0 : Ref sig .tc := ⟨.vmem, 38, rfl⟩
abbrev cc4_stg4_0 : Ref sig .tc := ⟨.vmem, 39, rfl⟩
abbrev cc4_stg5_0 : Ref sig .tc := ⟨.vmem, 40, rfl⟩
abbrev cc4_stg5_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem3_0 : DmaSem sig := 29
abbrev cc3_sem4_0 : DmaSem sig := 30
abbrev cc3_sem5_0 : DmaSem sig := 31
abbrev cc3_sem5_1 : DmaSem sig := 32
abbrev cc4_sem0_0 : DmaSem sig := 33
abbrev cc4_sem0_1 : DmaSem sig := 34
abbrev cc4_sem1_0 : DmaSem sig := 35
abbrev cc4_sem1_1 : DmaSem sig := 36
abbrev cc4_sem2_0 : DmaSem sig := 37
abbrev cc4_sem3_0 : DmaSem sig := 38
abbrev cc4_sem4_0 : DmaSem sig := 39
abbrev cc4_sem5_0 : DmaSem sig := 40
abbrev cc4_sem5_1 : DmaSem sig := 41

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x300 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S300x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  inb_S5000x300_S5000x300_0_0 : ∀ a, (![0, 0] : Fin 2 → Nat) a + S5000x300.size a ≤ S5000x300.size a
  h_S5000x300 : 0 < S5000x300.numel
  bitsLt_bf16_f32 : FTy.bits .bf16 < FTy.bits .f32
  inb_S300x128_S300x128_0_0 : ∀ a, (![0, 0] : Fin 2 → Nat) a + S300x128.size a ≤ S300x128.size a
  h_S300x128 : 0 < S300x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  slices_S4x128x128_S1x128x128_0_0_0 : S4x128x128.Slices ![0, 0, 0] S1x128x128
  shapeCasts_S1x128x128_S128x128 : S1x128x128.ShapeCasts S128x128
  slices_S4x128_S1x128_0_0 : S4x128.Slices ![0, 0] S1x128
  shapeCasts_S1x128_S128 : S1x128.ShapeCasts S128
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S128_S128 : S128.ShapeCasts S128
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  scatter_S100000_S1600000x1_S1600000_n_0_0_1_wf : ScatterDims.WF S100000 S1600000x1 S1600000 [] [0] [0] 1
  dot_S5000x300_S300x128_S5000x128_1_0_0_1_n_n_wf : DotDims.WF S5000x300 S300x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x300.size a ≤ S100000x300.size a
  hwx0_0 : ∀ i : grid0.Coords, EltTy.bits .f32 = 32 ∨ (Rect.block (s := S100000x300) S5000x300.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S300x128.size a ≤ S300x128.size a
  hwx0_1 : ∀ i : grid0.Coords, EltTy.bits .f32 = 32 ∨ (Rect.block (s := S300x128) S300x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S100000x128.size a
  hwx2_5 : ∀ i : grid2.Coords, EltTy.bits .f32 = 32 ∨ (Rect.block (s := S100000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .f32 = 32 ∨ (Rect.block (s := S100000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128.size a ≤ S128.size a
  hwx3_4 : ∀ i : grid3.Coords, EltTy.bits .f32 = 32 ∨ (Rect.block (s := S128) S128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S100000x128.size a
  hwx3_5 : ∀ i : grid3.Coords, EltTy.bits .f32 = 32 ∨ (Rect.block (s := S100000x128) S5000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S100000x128.size a
  hwx4_1 : ∀ i : grid4.Coords, EltTy.bits .f32 = 32 ∨ (Rect.block (s := S100000x128) S5000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128.size a ≤ S128.size a
  hwx4_4 : ∀ i : grid4.Coords, EltTy.bits .f32 = 32 ∨ (Rect.block (s := S128) S128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x128.size a ≤ S100000x128.size a
  hwx4_5 : ∀ i : grid4.Coords, EltTy.bits .f32 = 32 ∨ (Rect.block (s := S100000x128) S5000x128.size (cc4_transform_5 i) (hinb4_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x300_S300x128_S5000x128_1_0_0_1_n_n : DotDims S5000x300 S300x128 S5000x128 where
  lhsContracting := [1]
  rhsContracting := [0]
  lhsNonContracting := [0]
  rhsNonContracting := [1]
  lhsBatch := []
  rhsBatch := []
  wf := dot_S5000x300_S300x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x300.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S300x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v25) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v29) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v31) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v32) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v44) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v32) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v46) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v48) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v50) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v51) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v63) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v51) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v65) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v67) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v69) S128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v70) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v82) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v70) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v84) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v86) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v88) S128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v89) S5000x128.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S100000x300 : Shape := ⟨2, ![100000, 300]⟩
abbrev S2x1600000 : Shape := ⟨2, ![2, 1600000]⟩
abbrev S300x128 : Shape := ⟨2, ![300, 128]⟩
abbrev S128 : Shape := ⟨1, ![128]⟩
abbrev S4x128x128 : Shape := ⟨3, ![4, 128, 128]⟩
abbrev S4x128 : Shape := ⟨2, ![4, 128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x128 : Shape := ⟨2, ![100000, 128]⟩
abbrev S1x128 : Shape := ⟨2, ![1, 128]⟩
abbrev S1600000x128 : Shape := ⟨2, ![1600000, 128]⟩
abbrev S1x128x128 : Shape := ⟨3, ![1, 128, 128]⟩
abbrev S128x128 : Shape := ⟨2, ![128, 128]⟩

abbrev nBuf : Space → Nat
  | .hbm => 151
  | .vmem => 0
  | .smem => 0
  | _ => 0

abbrev hbmTy0_0 (i : Nat) : BufTy := match i % 128 with
  | 0 => ⟨S100000x300, .f32⟩
  | 1 => ⟨S2x1600000, .i32⟩
  | 2 => ⟨S300x128, .f32⟩
  | 3 => ⟨S128, .f32⟩
  | 4 => ⟨S4x128x128, .f32⟩
  | 5 => ⟨S4x128, .f32⟩
  | 6 => ⟨S4x128x128, .f32⟩
  | 7 => ⟨S1x1600000, .i32⟩
  | 8 => ⟨S1600000, .i32⟩
  | 9 => ⟨S1x1600000, .i32⟩
  | 10 => ⟨S1600000, .i32⟩
  | 11 => ⟨S_, .f32⟩
  | 12 => ⟨S1600000, .f32⟩
  | 13 => ⟨S_, .f32⟩
  | 14 => ⟨S100000, .f32⟩
  | 15 => ⟨S1600000x1, .i32⟩
  | 16 => ⟨S100000, .f32⟩
  | 17 => ⟨S_, .f32⟩
  | 18 => ⟨S100000, .f32⟩
  | 19 => ⟨S100000, .f32⟩
  | 20 => ⟨S_, .f32⟩
  | 21 => ⟨S100000, .f32⟩
  | 22 => ⟨S100000, .f32⟩
  | 23 => ⟨S100000x1, .f32⟩
  | 24 => ⟨S100000x128, .f32⟩
  | 25 => ⟨S1x128, .f32⟩
  | 26 => ⟨S100000x128, .f32⟩
  | 27 => ⟨S100000x128, .f32⟩
  | 28 => ⟨S_, .f32⟩
  | 29 => ⟨S100000x128, .f32⟩
  | 30 => ⟨S100000x128, .f32⟩
  | 31 => ⟨S_, .i32⟩
  | 32 => ⟨S1600000, .i32⟩
  | 33 => ⟨S1600000, .i1⟩
  | 34 => ⟨S_, .i32⟩
  | 35 => ⟨S1600000, .i32⟩
  | 36 => ⟨S1600000, .i32⟩
  | 37 => ⟨S1600000, .i32⟩
  | 38 => ⟨S1600000x1, .i32⟩
  | 39 => ⟨S1600000x128, .f32⟩
  | 40 => ⟨S_, .f32⟩
  | 41 => ⟨S100000x128, .f32⟩
  | 42 => ⟨S1600000x1, .i32⟩
  | 43 => ⟨S100000x128, .f32⟩
  | 44 => ⟨S100000x128, .f32⟩
  | 45 => ⟨S100000x128, .f32⟩
  | 46 => ⟨S1x128x128, .f32⟩
  | 47 => ⟨S128x128, .f32⟩
  | 48 => ⟨S100000x128, .f32⟩
  | 49 => ⟨S1x128, .f32⟩
  | 50 => ⟨S128, .f32⟩
  | 51 => ⟨S1x128, .f32⟩
  | 52 => ⟨S100000x128, .f32⟩
  | 53 => ⟨S100000x128, .f32⟩
  | 54 => ⟨S1x128x128, .f32⟩
  | 55 => ⟨S128x128, .f32⟩
  | 56 => ⟨S100000x128, .f32⟩
  | 57 => ⟨S100000x128, .f32⟩
  | 58 => ⟨S_, .f32⟩
  | 59 => ⟨S100000x128, .f32⟩
  | 60 => ⟨S100000x128, .f32⟩
  | 61 => ⟨S_, .i32⟩
  | 62 => ⟨S1600000, .i32⟩
  | 63 => ⟨S1600000, .i1⟩
  | 64 => ⟨S_, .i32⟩
  | 65 => ⟨S1600000, .i32⟩
  | 66 => ⟨S1600000, .i32⟩
  | 67 => ⟨S1600000, .i32⟩
  | 68 => ⟨S1600000x1, .i32⟩
  | 69 => ⟨S1600000x128, .f32⟩
  | 70 => ⟨S_, .f32⟩
  | 71 => ⟨S100000x128, .f32⟩
  | 72 => ⟨S1600000x1, .i32⟩
  | 73 => ⟨S100000x128, .f32⟩
  | 74 => ⟨S100000x128, .f32⟩
  | 75 => ⟨S100000x128, .f32⟩
  | 76 => ⟨S1x128x128, .f32⟩
  | 77 => ⟨S128x128, .f32⟩
  | 78 => ⟨S100000x128, .f32⟩
  | 79 => ⟨S1x128, .f32⟩
  | 80 => ⟨S128, .f32⟩
  | 81 => ⟨S1x128, .f32⟩
  | 82 => ⟨S100000x128, .f32⟩
  | 83 => ⟨S100000x128, .f32⟩
  | 84 => ⟨S1x128x128, .f32⟩
  | 85 => ⟨S128x128, .f32⟩
  | 86 => ⟨S100000x128, .f32⟩
  | 87 => ⟨S100000x128, .f32⟩
  | 88 => ⟨S_, .f32⟩
  | 89 => ⟨S100000x128, .f32⟩
  | 90 => ⟨S100000x128, .f32⟩
  | 91 => ⟨S_, .i32⟩
  | 92 => ⟨S1600000, .i32⟩
  | 93 => ⟨S1600000, .i1⟩
  | 94 => ⟨S_, .i32⟩
  | 95 => ⟨S1600000, .i32⟩
  | 96 => ⟨S1600000, .i32⟩
  | 97 => ⟨S1600000, .i32⟩
  | 98 => ⟨S1600000x1, .i32⟩
  | 99 => ⟨S1600000x128, .f32⟩
  | 100 => ⟨S_, .f32⟩
  | 101 => ⟨S100000x128, .f32⟩
  | 102 => ⟨S1600000x1, .i32⟩
  | 103 => ⟨S100000x128, .f32⟩
  | 104 => ⟨S100000x128, .f32⟩
  | 105 => ⟨S100000x128, .f32⟩
  | 106 => ⟨S1x128x128, .f32⟩
  | 107 => ⟨S128x128, .f32⟩
  | 108 => ⟨S100000x128, .f32⟩
  | 109 => ⟨S1x128, .f32⟩
  | 110 => ⟨S128, .f32⟩
  | 111 => ⟨S1x128, .f32⟩
  | 112 => ⟨S100000x128, .f32⟩
  | 113 => ⟨S100000x128, .f32⟩
  | 114 => ⟨S1x128x128, .f32⟩
  | 115 => ⟨S128x128, .f32⟩
  | 116 => ⟨S100000x128, .f32⟩
  | 117 => ⟨S100000x128, .f32⟩
  | 118 => ⟨S_, .f32⟩
  | 119 => ⟨S100000x128, .f32⟩
  | 120 => ⟨S100000x128, .f32⟩
  | 121 => ⟨S_, .i32⟩
  | 122 => ⟨S1600000, .i32⟩
  | 123 => ⟨S1600000, .i1⟩
  | 124 => ⟨S_, .i32⟩
  | 125 => ⟨S1600000, .i32⟩
  | 126 => ⟨S1600000, .i32⟩
  | 127 => ⟨S1600000, .i32⟩
  | _ => ⟨S100000x300, .f32⟩

abbrev hbmTy0_1 (i : Nat) : BufTy := match i % 128 with
  | 0 => ⟨S1600000x1, .i32⟩
  | 1 => ⟨S1600000x128, .f32⟩
  | 2 => ⟨S_, .f32⟩
  | 3 => ⟨S100000x128, .f32⟩
  | 4 => ⟨S1600000x1, .i32⟩
  | 5 => ⟨S100000x128, .f32⟩
  | 6 => ⟨S100000x128, .f32⟩
  | 7 => ⟨S100000x128, .f32⟩
  | 8 => ⟨S1x128x128, .f32⟩
  | 9 => ⟨S128x128, .f32⟩
  | 10 => ⟨S100000x128, .f32⟩
  | 11 => ⟨S1x128, .f32⟩
  | 12 => ⟨S128, .f32⟩
  | 13 => ⟨S1x128, .f32⟩
  | 14 => ⟨S100000x128, .f32⟩
  | 15 => ⟨S100000x128, .f32⟩
  | 16 => ⟨S1x128x128, .f32⟩
  | 17 => ⟨S128x128, .f32⟩
  | 18 => ⟨S100000x128, .f32⟩
  | 19 => ⟨S100000x128, .f32⟩
  | 20 => ⟨S_, .f32⟩
  | 21 => ⟨S100000x128, .f32⟩
  | 22 => ⟨S100000x128, .f32⟩
  | _ => ⟨S100000x300, .f32⟩

abbrev hbmTy (i : Nat) : BufTy := match i / 128 with
  | 0 => hbmTy0_0 i
  | 1 => hbmTy0_1 i
  | _ => ⟨S100000x300, .f32⟩

abbrev bufTy : (tb : Table) → Fin (tcTables nBuf tb) → BufTy
  | .hbm, ⟨i, _⟩ => hbmTy i
  | _, _ => ⟨S100000x300, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_call0_cst : Ref sig .tc := ⟨.hbm, 28, rfl⟩
abbrev main_call0_v0 : Ref sig .tc := ⟨.hbm, 29, rfl⟩
abbrev main_v17 : Ref sig .tc := ⟨.hbm, 30, rfl⟩
abbrev main_c : Ref sig .tc := ⟨.hbm, 31, rfl⟩
abbrev main_v18 : Ref sig .tc := ⟨.hbm, 32, rfl⟩
abbrev main_v19 : Ref sig .tc := ⟨.hbm, 33, rfl⟩
abbrev main_c_3 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_4 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_call1_cst : Ref sig .tc := ⟨.hbm, 58, rfl⟩
abbrev main_call1_v0 : Ref sig .tc := ⟨.hbm, 59, rfl⟩
abbrev main_v42 : Ref sig .tc := ⟨.hbm, 60, rfl⟩
abbrev main_c_5 : Ref sig .tc := ⟨.hbm, 61, rfl⟩
abbrev main_v43 : Ref sig .tc := ⟨.hbm, 62, rfl⟩
abbrev main_v44 : Ref sig .tc := ⟨.hbm, 63, rfl⟩
abbrev main_c_6 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_7 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_call2_cst : Ref sig .tc := ⟨.hbm, 88, rfl⟩
abbrev main_call2_v0 : Ref sig .tc := ⟨.hbm, 89, rfl⟩
abbrev main_v67 : Ref sig .tc := ⟨.hbm, 90, rfl⟩
abbrev main_c_8 : Ref sig .tc := ⟨.hbm, 91, rfl⟩
abbrev main_v68 : Ref sig .tc := ⟨.hbm, 92, rfl⟩
abbrev main_v69 : Ref sig .tc := ⟨.hbm, 93, rfl⟩
abbrev main_c_9 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_cst_10 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_call3_cst : Ref sig .tc := ⟨.hbm, 118, rfl⟩
abbrev main_call3_v0 : Ref sig .tc := ⟨.hbm, 119, rfl⟩
abbrev main_v92 : Ref sig .tc := ⟨.hbm, 120, rfl⟩
abbrev main_c_11 : Ref sig .tc := ⟨.hbm, 121, rfl⟩
abbrev main_v93 : Ref sig .tc := ⟨.hbm, 122, rfl⟩
abbrev main_v94 : Ref sig .tc := ⟨.hbm, 123, rfl⟩
abbrev main_c_12 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_cst_13 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_call4_cst : Ref sig .tc := ⟨.hbm, 148, rfl⟩
abbrev main_call4_v0 : Ref sig .tc := ⟨.hbm, 149, rfl⟩
abbrev main_v117 : Ref sig .tc := ⟨.hbm, 150, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  slices_S4x128x128_S1x128x128_0_0_0 : S4x128x128.Slices ![0, 0, 0] S1x128x128
  shapeCasts_S1x128x128_S128x128 : S1x128x128.ShapeCasts S128x128
  slices_S4x128_S1x128_0_0 : S4x128.Slices ![0, 0] S1x128
  shapeCasts_S1x128_S128 : S1x128.ShapeCasts S128
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  scatter_S100000_S1600000x1_S1600000_n_0_0_1_wf : ScatterDims.WF S100000 S1600000x1 S1600000 [] [0] [0] 1
  dot_S100000x300_S300x128_S100000x128_1_0_0_1_n_n_wf : DotDims.WF S100000x300 S300x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x300_S300x128_S100000x128_1_0_0_1_n_n : DotDims S100000x300 S300x128 S100000x128 where
  lhsContracting := [1]
  rhsContracting := [0]
  lhsNonContracting := [0]
  rhsNonContracting := [1]
  lhsBatch := []
  rhsBatch := []
  wf := dot_S100000x300_S300x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.LibDotIndex.lean ====
/-
  The contraction index of a rows-by-columns product, made an ordinary column index.

  For operands of shapes [A, K] and [K, B] whose dimension numbers say "no batch axes, the left operand's axis 0 and
  the right operand's axis 1 are kept, axis 1 of the left is contracted against axis 0 of the right", the contraction's
  own index set has one axis of extent K. Summing over it is summing over `Fin K`: at the result entry (p, q) and the
  contraction position k the left operand is read at (p, k) and the right operand at (k, q).
-/
import Idealize.ShloMosaic.Lib.ValueIdx
import Idealize.ShloMosaic.PureOps.Ideal.Laws

open scoped BigOperators

namespace Cert.PlainDot

open Idealize.ShloMosaic Idealize.ShloMosaic.ValueIdx

variable {A K B : Nat} (d : DotDims ⟨2, ![A, K]⟩ ⟨2, ![K, B]⟩ ⟨2, ![A, B]⟩)

/-- The left operand is read at row p of the result entry and at the contraction position. -/
theorem lhs_at (hlb : d.lhsBatch = []) (hln : d.lhsNonContracting = [0]) (hlc : d.lhsContracting = [1])
    (hr : d.contr.rank = 1) (hs : d.contr.size ⟨0, by omega⟩ = K) (p : Fin A) (q : Fin B) (k : Fin K) :
    d.lhsIdx (ix2 p q) ((contrEquiv1 d K hr hs).symm k) = ix2 p k := by
  funext a
  apply Fin.ext
  match a with
  | ⟨0, _⟩ =>
    show (d.lhsIdx (ix2 p q) ((contrEquiv1 d K hr hs).symm k) 0).val = p.val
    have key : ∀ (n : Nat) (h : n < (⟨2, ![A, B]⟩ : Shape).rank), n = 0 →
        ((ix2 p q : (⟨2, ![A, B]⟩ : Shape).Idx) ⟨n, h⟩).val = p.val := by
      intro n h e; subst e; rfl
    unfold DotDims.lhsIdx
    rw [dif_neg (by simp [hlb]), dif_pos (by simp [hln])]
    simp only [Fin.val_cast]
    exact key _ _ (by simp [hlb, hln])
  | ⟨1, _⟩ =>
    show (d.lhsIdx (ix2 p q) ((contrEquiv1 d K hr hs).symm k) 1).val = k.val
    rw [d.lhsIdx_val_of_single hlc]
    exact contrEquiv1_symm_val d K hr hs k

/-- The right operand is read at the contraction position and at column q of the result entry. -/
theorem rhs_at (hlb : d.lhsBatch = []) (hln : d.lhsNonContracting = [0])
    (hrb : d.rhsBatch = []) (hrn : d.rhsNonContracting = [1]) (hrc : d.rhsContracting = [0])
    (hr : d.contr.rank = 1) (hs : d.contr.size ⟨0, by omega⟩ = K) (p : Fin A) (q : Fin B) (k : Fin K) :
    d.rhsIdx (ix2 p q) ((contrEquiv1 d K hr hs).symm k) = ix2 k q := by
  funext a
  apply Fin.ext
  match a with
  | ⟨0, _⟩ =>
    show (d.rhsIdx (ix2 p q) ((contrEquiv1 d K hr hs).symm k) 0).val = k.val
    rw [d.rhsIdx_val_of_single hrc]
    exact contrEquiv1_symm_val d K hr hs k
  | ⟨1, _⟩ =>
    show (d.rhsIdx (ix2 p q) ((contrEquiv1 d K hr hs).symm k) 1).val = q.val
    have key : ∀ (n : Nat) (h : n < (⟨2, ![A, B]⟩ : Shape).rank), n = 1 →
        ((ix2 p q : (⟨2, ![A, B]⟩ : Shape).Idx) ⟨n, h⟩).val = q.val := by
      intro n h e; subst e; rfl
    unfold DotDims.rhsIdx
    rw [dif_neg (by simp [hrb]), dif_pos (by simp [hrn])]
    simp only [Fin.val_cast]
    exact key _ _ (by simp [hlb, hln, hrn])

/-- The sum over the contraction's index set is the sum over the columns of the left operand. -/
theorem sum_eq {φ₁ φ₂ : FTy}
    (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K)
    (x : FVec Ideal ⟨2, ![A, K]⟩ φ₁) (y : FVec Ideal ⟨2, ![K, B]⟩ φ₂) (p : Fin A) (q : Fin B) :
    (∑ k : d.contr.Idx, (x (d.lhsIdx (ix2 p q) k) : EReal) * (y (d.rhsIdx (ix2 p q) k) : EReal))
      = ∑ k : Fin K, (x (ix2 p k) : EReal) * (y (ix2 k q) : EReal) := by
  rw [← Equiv.sum_comp (contrEquiv1 d K hr hs).symm]
  refine Finset.sum_congr rfl fun k _ => ?_
  rw [lhs_at d hlb hln hlc hr hs p q k, rhs_at d hlb hln hrb hrn hrc hr hs p q k]

end Cert.PlainDot
-- ==== Proof.LibDotSums.lean ====
/-
  Matrix products at the exact values, read entry by entry.

  For operands of shapes [A, K] and [K, B] whose dimension numbers say "no batch axes, contract axis 1 of the left
  against axis 0 of the right", both the in-kernel product accumulated into a zero tile and the host's `dot_general`
  have, at the entry (p, q), the value `∑ k < K, x (p, k) * y (k, q)`: over the extended reals neither carries a rounding
  or an order of summation, so the two are the same finite sum. The re-indexing of the contraction's own index set to
  `Fin K` is the rows-by-columns lemma for such records.
-/
import proofs.«105063_j23124103922158_1_alg».proof.Proof.LibDotIndex

open scoped BigOperators

namespace Cert.DotSums

open Idealize.ShloMosaic Idealize.ShloMosaic.ValueIdx

variable {A K B : Nat} (d : DotDims ⟨2, ![A, K]⟩ ⟨2, ![K, B]⟩ ⟨2, ![A, B]⟩)

/-- The in-kernel product into a zero accumulator, at (p, q): the plain sum along row p and column q. -/
theorem matmul_zero_ix2 {φ₁ φ₂ : FTy} (prec : Option ContractPrecision)
    (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K)
    (x : FVec Ideal ⟨2, ![A, K]⟩ φ₁) (y : FVec Ideal ⟨2, ![K, B]⟩ φ₂) (p : Fin A) (q : Fin B) :
    FloatOps.matmul d prec x y (constant ⟨2, ![A, B]⟩ .f32 0x00000000#32) (ix2 p q)
      = ∑ k : Fin K, (x (ix2 p k) : EReal) * (y (ix2 k q) : EReal) :=
  (Ideal.matmul_constant_zero_apply d prec x y (ix2 p q)).trans
    (Cert.PlainDot.sum_eq d hlb hln hlc hrb hrn hrc hr hs x y p q)

/-- The host's `dot_general`, at (p, q): the same plain sum, whatever the schedule key. -/
theorem dotGeneral_ix2 {φ₁ φ₂ : FTy} (prec : Option ContractPrecision) (sched : HostSchedule)
    (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K)
    (x : FVec Ideal ⟨2, ![A, K]⟩ φ₁) (y : FVec Ideal ⟨2, ![K, B]⟩ φ₂) (p : Fin A) (q : Fin B) :
    FloatOps.dotGeneral d prec sched x y (ix2 p q)
      = ∑ k : Fin K, (x (ix2 p k) : EReal) * (y (ix2 k q) : EReal) :=
  (Ideal.dotGeneral_apply d prec sched x y (ix2 p q)).trans
    (Cert.PlainDot.sum_eq d hlb hln hlc hrb hrn hrc hr hs x y p q)

end Cert.DotSums
-- ==== Proof.LibBiasRow.lean ====
/-
  A bias vector as a row, read at an index: a vector `[b]` placed as the one row of `[1, b]` reads its entry of the
  column; a row `[1, b]` repeated down `a` rows reads, at `(p, q)`, its entry `q`. (A `broadcast_in_dim` reads the
  operand's unit axes at coordinate zero and its other axes at the result's coordinate on the axis they are sent to.)
-/
import Idealize.ShloMosaic.Lib.ValueIdx
import Idealize.ShloMosaic.Lib.Pipeline.Value

noncomputable section

namespace Cert.BiasRow

open Idealize.ShloMosaic Idealize.ShloMosaic.ValueIdx

variable {α : Type}

/-- A vector `[b]` placed as the row of `[1, b]` reads, at `(u, q)`, its entry `q`. -/
theorem row_apply {b : ℕ} (x : (⟨1, ![b]⟩ : Shape).Idx → α) (h : (⟨1, ![b]⟩ : Shape).BroadcastsInDim ⟨2, ![1, b]⟩ ![1])
    (u : Fin 1) (q : Fin b) : broadcastInDim ⟨2, ![1, b]⟩ ![1] h x (ix2 u q) = x (ix1 q) := by
  refine broadcastInDim_apply ![1] h x (ix2 u q) (ix1 q) fun ax => ?_
  match ax with
  | ⟨0, _⟩ =>
    show q.val = if b = 1 then 0 else q.val
    split
    · have := q.isLt; omega
    · rfl

/-- A row `[1, b]` repeated down `a` rows reads, at `(p, q)`, the row's entry `q`. -/
theorem down_apply {a b : ℕ} (x : (⟨2, ![1, b]⟩ : Shape).Idx → α) (h : (⟨2, ![1, b]⟩ : Shape).BroadcastsInDim ⟨2, ![a, b]⟩ ![0, 1])
    (p : Fin a) (q : Fin b) : broadcastInDim ⟨2, ![a, b]⟩ ![0, 1] h x (ix2 p q) = x (ix2 (0 : Fin 1) q) := by
  refine broadcastInDim_apply ![0, 1] h x (ix2 p q) (ix2 (0 : Fin 1) q) fun ax => ?_
  match ax with
  | ⟨0, _⟩ =>
    show (0 : ℕ) = if (1 : ℕ) = 1 then 0 else p.val
    rw [if_pos rfl]
  | ⟨1, _⟩ =>
    show q.val = if b = 1 then 0 else q.val
    split
    · have := q.isLt; omega
    · rfl

end Cert.BiasRow

end
-- ==== Proof.LibDenseLayer.lean ====
/-
  A dense layer read entry by entry at the exact values, in the form a kernel tile computes it and in the form a host
  program computes it.

  Over the extended reals a float is an exact number and a change of float format is the identity, so:

    an affine layer   x · W + b   has, at row p and column q, the value  (∑ k, x (p, k) · W (k, q)) + b q,  whether the
      product is a matrix unit's product into a zero accumulator with the bias vector recast as a one-row matrix and
      repeated down the rows, or the host's general product with the bias placed by two broadcasts;

    a leaky rectifier   z ↦ if z ≥ 0 then z else slope · z   is decided entry by entry by the ordered comparison
      against the zero word, whether the zero and the slope are splat scalars (a tile) or rank-0 arrays broadcast over the
      shape (the host, where the slope arrives through a conversion to its own type, the identity);

    the logistic   z ↦ 1 / (1 + exp (−z))   is one function whether it is one operation (a tile) or the host's
      negate, exponential, add-one, divide-into-one spelt out, the word of 1 being the number 1.

  Every statement is for any shape extents, any dimension record with the rows-by-columns numbers, any operand formats.
-/
import proofs.«105063_j23124103922158_1_alg».proof.Proof.LibDotSums
import proofs.«105063_j23124103922158_1_alg».proof.Proof.LibBiasRow
import Idealize.ShloMosaic.Lib.ValueLayout

open scoped BigOperators

noncomputable section

namespace Cert.DenseLayer

open Idealize.ShloMosaic Idealize.ShloMosaic.ValueIdx

/-- Entry `q` of one row `h` sent through an affine layer: the row against column `q` of the weights, plus the
    bias's entry `q`. -/
def affine {K B : ℕ} (h : Fin K → EReal) (W : Fin K → Fin B → EReal) (b : Fin B → EReal) (q : Fin B) : EReal :=
  (∑ k : Fin K, h k * W k q) + b q

/-- The leaky rectifier with the slope of word `sl`: `z` where the ordered comparison `z ≥ 0` holds, the slope times
    `z` elsewhere. -/
def leaky (sl : BitVec 32) (z : EReal) : EReal :=
  Scalar.select (FloatOps.cmpf (F := Ideal) (φ := .f32) .oge z (Ideal.ofBits .f32 0x00000000#32)) z
    (Ideal.ofBits .f32 sl * z)

/-- The f32 word of one is the number one. -/
theorem one_word : Ideal.ofBits .f32 0x3F800000#32 = 1 := by
  simp [Ideal.ofBits, Ideal.ieee, -EReal.coe_mul]; norm_num

/-- A rank-0 array broadcast over any shape reads its one entry everywhere. (The map from the operand's axes to the
    result's has no axis to send; it is kept a variable so that any spelling of the empty map is matched.) -/
theorem scalar_apply {α : Type} {t : Shape} (dims : Fin (⟨0, ![]⟩ : Shape).rank → Fin t.rank)
    (x : (⟨0, ![]⟩ : Shape).Idx → α) (h : (⟨0, ![]⟩ : Shape).BroadcastsInDim t dims) (j : t.Idx) :
    broadcastInDim t dims h x j = x ix0 :=
  broadcastInDim_apply dims h x j ix0 (fun a => a.elim0)

section Affine

variable {A K B : ℕ} {φ₁ φ₂ : FTy} (d : DotDims ⟨2, ![A, K]⟩ ⟨2, ![K, B]⟩ ⟨2, ![A, B]⟩)
  (hlb : d.lhsBatch = []) (hln : d.lhsNonContracting = [0]) (hlc : d.lhsContracting = [1])
  (hrb : d.rhsBatch = []) (hrn : d.rhsNonContracting = [1]) (hrc : d.rhsContracting = [0])
  (hr : d.contr.rank = 1) (hs : d.contr.size ⟨0, by omega⟩ = K) (prec : Option ContractPrecision)
  (x : FVec Ideal ⟨2, ![A, K]⟩ φ₁) (w : FVec Ideal ⟨2, ![K, B]⟩ φ₂) (c : FVec Ideal ⟨1, ![B]⟩ .f32)

include hlb hln hlc hrb hrn hrc hr hs

/-- The tile form: the matrix unit's product into the zero tile, plus the bias recast `[B] → [1, B]` and repeated
    down the rows. -/
theorem tile_affine_apply (h1 : (⟨1, ![B]⟩ : Shape).ShapeCasts ⟨2, ![1, B]⟩)
    (h2 : (⟨2, ![1, B]⟩ : Shape).Broadcasts ⟨2, ![A, B]⟩) (p : Fin A) (q : Fin B) :
    addf (matmul d prec x w (constant ⟨2, ![A, B]⟩ .f32 0x00000000#32))
        (broadcastTo ⟨2, ![A, B]⟩ (shapeCast ⟨2, ![1, B]⟩ c h1) h2) (ix2 p q)
      = affine (fun k => x (ix2 p k)) (fun k q => w (ix2 k q)) (fun q => c (ix1 q)) q := by
  show FloatOps.matmul d prec x w (constant ⟨2, ![A, B]⟩ .f32 0x00000000#32) (ix2 p q)
      + broadcastTo ⟨2, ![A, B]⟩ (shapeCast ⟨2, ![1, B]⟩ c h1) h2 (ix2 p q) = _
  rw [Cert.DotSums.matmul_zero_ix2 d prec hlb hln hlc hrb hrn hrc hr hs x w p q, broadcastTo_1b_ab_apply,
    shapeCast_a_1a_apply]
  rfl

/-- The host form: the general product, plus the bias placed as the row of `[1, B]` and repeated down the rows by two
    broadcasts. -/
theorem host_affine_apply (h1 : (⟨1, ![B]⟩ : Shape).BroadcastsInDim ⟨2, ![1, B]⟩ ![1])
    (h2 : (⟨2, ![1, B]⟩ : Shape).BroadcastsInDim ⟨2, ![A, B]⟩ ![0, 1]) (p : Fin A) (q : Fin B) :
    addf (Host.dotGeneral d prec x w)
        (broadcastInDim ⟨2, ![A, B]⟩ ![0, 1] h2 (broadcastInDim ⟨2, ![1, B]⟩ ![1] h1 c)) (ix2 p q)
      = affine (fun k => x (ix2 p k)) (fun k q => w (ix2 k q)) (fun q => c (ix1 q)) q := by
  show FloatOps.dotGeneral d prec .single x w (ix2 p q)
      + broadcastInDim ⟨2, ![A, B]⟩ ![0, 1] h2 (broadcastInDim ⟨2, ![1, B]⟩ ![1] h1 c) (ix2 p q) = _
  rw [Cert.DotSums.dotGeneral_ix2 d prec .single hlb hln hlc hrb hrn hrc hr hs x w p q, Cert.BiasRow.down_apply,
    Cert.BiasRow.row_apply]
  rfl

/-- The last layer of a tile, with no bias: the matrix unit's product into the zero tile is the plain sum. -/
theorem tile_product_apply (p : Fin A) (q : Fin B) :
    matmul d prec x w (constant ⟨2, ![A, B]⟩ .f32 0x00000000#32) (ix2 p q) = ∑ k : Fin K, x (ix2 p k) * w (ix2 k q) :=
  Cert.DotSums.matmul_zero_ix2 d prec hlb hln hlc hrb hrn hrc hr hs x w p q

/-- The host's product with no bias likewise. -/
theorem host_product_apply (p : Fin A) (q : Fin B) :
    Host.dotGeneral d prec x w (ix2 p q) = ∑ k : Fin K, x (ix2 p k) * w (ix2 k q) :=
  Cert.DotSums.dotGeneral_ix2 d prec .single hlb hln hlc hrb hrn hrc hr hs x w p q

end Affine

/-- The tile form of the leaky rectifier: the zero and the slope are scalars splat over the tile. -/
theorem tile_leaky_apply {t : Shape} (sl : BitVec 32) (v : FVec Ideal t .f32) (j : t.Idx) :
    select (cmpf .oge v (broadcast t (Scalar.ofBits (F := Ideal) .f32 0x00000000#32))) v
      (mulf (broadcast t (Scalar.ofBits (F := Ideal) .f32 sl)) v) j = leaky sl (v j) := rfl

/-- The host form of the leaky rectifier: the zero and the slope are rank-0 arrays broadcast over the shape, the slope
    first converted to its own type. -/
theorem host_leaky_apply {t : Shape} (sl : BitVec 32) (v : FVec Ideal t .f32)
    (dims : Fin (⟨0, ![]⟩ : Shape).rank → Fin t.rank) (h0 : (⟨0, ![]⟩ : Shape).BroadcastsInDim t dims) (j : t.Idx) :
    select (cmpf .oge v (broadcastInDim t dims h0 (constant (F := Ideal) ⟨0, ![]⟩ .f32 0x00000000#32))) v
      (mulf (broadcastInDim t dims h0 (id (constant (F := Ideal) ⟨0, ![]⟩ .f32 sl))) v) j = leaky sl (v j) := by
  show Scalar.select (FloatOps.cmpf (F := Ideal) (φ := .f32) .oge (v j)
      (broadcastInDim t dims h0 (constant (F := Ideal) ⟨0, ![]⟩ .f32 0x00000000#32) j)) (v j)
      (broadcastInDim t dims h0 (id (constant (F := Ideal) ⟨0, ![]⟩ .f32 sl)) j * v j) = _
  rw [scalar_apply, scalar_apply]
  rfl

/-- The tile's logistic is the logistic of the entry. -/
theorem tile_logistic_apply {t : Shape} (v : FVec Ideal t .f32) (j : t.Idx) :
    logistic v j = Ideal.logistic (v j) := rfl

/-- The host's logistic spelt out, `1 / (1 + exp (−z))` with both ones rank-0 arrays broadcast over the shape, is the
    logistic of the entry. -/
theorem host_logistic_apply {t : Shape} (v : FVec Ideal t .f32) (dims : Fin (⟨0, ![]⟩ : Shape).rank → Fin t.rank)
    (h0 : (⟨0, ![]⟩ : Shape).BroadcastsInDim t dims) (j : t.Idx) :
    Host.divf (broadcastInDim t dims h0 (constant (F := Ideal) ⟨0, ![]⟩ .f32 0x3F800000#32))
      (addf (broadcastInDim t dims h0 (constant (F := Ideal) ⟨0, ![]⟩ .f32 0x3F800000#32)) (Host.exp (Host.negf v))) j
      = Ideal.logistic (v j) := by
  show Ideal.div (broadcastInDim t dims h0 (constant (F := Ideal) ⟨0, ![]⟩ .f32 0x3F800000#32) j)
      (broadcastInDim t dims h0 (constant (F := Ideal) ⟨0, ![]⟩ .f32 0x3F800000#32) j + Ideal.exp (-(v j))) = _
  rw [scalar_apply]
  show Ideal.div (Ideal.ofBits .f32 0x3F800000#32) (Ideal.ofBits .f32 0x3F800000#32 + Ideal.exp (-(v j))) = _
  rw [one_word]
  rfl

end Cert.DenseLayer

end
-- ==== Proof.LibRectLayers.lean ====
/-
  Rectified dense layers read entry by entry at the exact values, in the form a kernel tile computes them and in the
  form a host program computes them, for any extents, any rows-by-columns dimension record, any operand formats.

  Over the extended reals a float is an exact number, a change of float format is the identity and a matrix product
  carries no rounding and no order of summation. So

    a rectified affine layer   max (x · W + b, 0)   has, at row p and column q, the value
        max ((∑ k, x (p, k) · W (k, q)) + b q, 0);

    a rectified two-product layer   max (a · Wl + h · Wr + b, 0)   has the value
        max (((∑ k, a (p, k) · Wl (k, q)) + ∑ k, h (p, k) · Wr (k, q)) + b q, 0),
      whether the bias is added after both products (a tile) or between them (the host): addition of extended reals is
      commutative and associative, infinities included, so  (s + b) + t = (s + t) + b  with no finiteness needed.

  Entry (p, q) of either layer reads row p of the row operands only (`dense_congr`, `combine_congr`): a block of rows
  of the layer of whole arrays is the layer of that block of rows — what a kernel tiled over rows needs to go from the
  blocks its grid points write to the whole result array.
-/
import proofs.«105063_j23124103922158_1_alg».proof.Proof.LibDenseLayer

open scoped BigOperators

noncomputable section

namespace Cert.RectLayers

open Idealize.ShloMosaic Idealize.ShloMosaic.ValueIdx Cert.DenseLayer

/-- The rectifier: the larger of the entry and the number of the zero word. -/
def rect (z : EReal) : EReal := max z (Ideal.ofBits .f32 0x00000000#32)

variable {A K B : ℕ}

/-- The input layer over A rows: entry (p, q) is the rectified affine image of row p. -/
def dense (x : FVec Ideal ⟨2, ![A, K]⟩ .f32) (w : FVec Ideal ⟨2, ![K, B]⟩ .f32) (b : FVec Ideal ⟨1, ![B]⟩ .f32) :
    FVec Ideal ⟨2, ![A, B]⟩ .f32 :=
  fun i => rect (affine (fun k => x (ix2 (i 0) k)) (fun k q => w (ix2 k q)) (fun q => b (ix1 q)) (i 1))

/-- One convolution layer over A rows: entry (p, q) is the rectified sum of row p of the aggregate against column q
    of the left weights, row p of the nodes' own features against column q of the right weights, and the bias. -/
def combine (a h : FVec Ideal ⟨2, ![A, K]⟩ .f32) (wl wr : FVec Ideal ⟨2, ![K, B]⟩ .f32) (b : FVec Ideal ⟨1, ![B]⟩ .f32) :
    FVec Ideal ⟨2, ![A, B]⟩ .f32 :=
  fun i => rect (((∑ k : Fin K, (a (ix2 (i 0) k) : EReal) * (wl (ix2 k (i 1)) : EReal))
      + ∑ k : Fin K, (h (ix2 (i 0) k) : EReal) * (wr (ix2 k (i 1)) : EReal)) + (b (ix1 (i 1)) : EReal))

theorem dense_ix2 (x : FVec Ideal ⟨2, ![A, K]⟩ .f32) (w : FVec Ideal ⟨2, ![K, B]⟩ .f32) (b : FVec Ideal ⟨1, ![B]⟩ .f32)
    (p : Fin A) (q : Fin B) :
    dense x w b (ix2 p q)
      = rect (affine (fun k => x (ix2 p k)) (fun k q => w (ix2 k q)) (fun q => b (ix1 q)) q) := rfl

theorem combine_ix2 (a h : FVec Ideal ⟨2, ![A, K]⟩ .f32) (wl wr : FVec Ideal ⟨2, ![K, B]⟩ .f32)
    (b : FVec Ideal ⟨1, ![B]⟩ .f32) (p : Fin A) (q : Fin B) :
    combine a h wl wr b (ix2 p q)
      = rect (((∑ k : Fin K, (a (ix2 p k) : EReal) * (wl (ix2 k q) : EReal))
          + ∑ k : Fin K, (h (ix2 p k) : EReal) * (wr (ix2 k q) : EReal)) + (b (ix1 q) : EReal)) := rfl

section Rows

variable {A' : ℕ}

/-- Entry i of the input layer over one array is entry i' of it over another when row (i 0) of the one is row (i' 0)
    of the other, the weights and the bias agree entry by entry, and the two columns are the same. -/
theorem dense_congr (x : FVec Ideal ⟨2, ![A, K]⟩ .f32) (x' : FVec Ideal ⟨2, ![A', K]⟩ .f32)
    (w w' : FVec Ideal ⟨2, ![K, B]⟩ .f32) (b b' : FVec Ideal ⟨1, ![B]⟩ .f32)
    (i : (⟨2, ![A, B]⟩ : Shape).Idx) (i' : (⟨2, ![A', B]⟩ : Shape).Idx)
    (hx : ∀ k : Fin K, x (ix2 (i 0) k) = x' (ix2 (i' 0) k))
    (hw : ∀ (k : Fin K) (q : Fin B), w (ix2 k q) = w' (ix2 k q)) (hb : ∀ q : Fin B, b (ix1 q) = b' (ix1 q))
    (hq : (i 1).val = (i' 1).val) : dense x w b i = dense x' w' b' i' := by
  obtain ⟨p, q, rfl⟩ : ∃ (p : Fin A) (q : Fin B), i = ix2 p q := ⟨i 0, i 1, eq_ix2 i⟩
  obtain ⟨p', q', rfl⟩ : ∃ (p' : Fin A') (q' : Fin B), i' = ix2 p' q' := ⟨i' 0, i' 1, eq_ix2 i'⟩
  have e : q = q' := Fin.ext hq
  subst e
  have hx' : ∀ k : Fin K, x (ix2 p k) = x' (ix2 p' k) := hx
  rw [dense_ix2, dense_ix2]
  unfold affine
  simp only [hx', hw, hb]

/-- The same for a convolution layer: rows (i 0) of the aggregate and of the nodes' own features. -/
theorem combine_congr (a h : FVec Ideal ⟨2, ![A, K]⟩ .f32) (a' h' : FVec Ideal ⟨2, ![A', K]⟩ .f32)
    (wl wr wl' wr' : FVec Ideal ⟨2, ![K, B]⟩ .f32) (b b' : FVec Ideal ⟨1, ![B]⟩ .f32)
    (i : (⟨2, ![A, B]⟩ : Shape).Idx) (i' : (⟨2, ![A', B]⟩ : Shape).Idx)
    (ha : ∀ k : Fin K, a (ix2 (i 0) k) = a' (ix2 (i' 0) k)) (hh : ∀ k : Fin K, h (ix2 (i 0) k) = h' (ix2 (i' 0) k))
    (hwl : ∀ (k : Fin K) (q : Fin B), wl (ix2 k q) = wl' (ix2 k q))
    (hwr : ∀ (k : Fin K) (q : Fin B), wr (ix2 k q) = wr' (ix2 k q)) (hb : ∀ q : Fin B, b (ix1 q) = b' (ix1 q))
    (hq : (i 1).val = (i' 1).val) : combine a h wl wr b i = combine a' h' wl' wr' b' i' := by
  obtain ⟨p, q, rfl⟩ : ∃ (p : Fin A) (q : Fin B), i = ix2 p q := ⟨i 0, i 1, eq_ix2 i⟩
  obtain ⟨p', q', rfl⟩ : ∃ (p' : Fin A') (q' : Fin B), i' = ix2 p' q' := ⟨i' 0, i' 1, eq_ix2 i'⟩
  have e : q = q' := Fin.ext hq
  subst e
  have ha' : ∀ k : Fin K, a (ix2 p k) = a' (ix2 p' k) := ha
  have hh' : ∀ k : Fin K, h (ix2 p k) = h' (ix2 p' k) := hh
  rw [combine_ix2, combine_ix2]
  simp only [ha', hh', hwl, hwr, hb]

end Rows

section Forms

variable {φ₁ φ₂ : FTy} (d : DotDims ⟨2, ![A, K]⟩ ⟨2, ![K, B]⟩ ⟨2, ![A, B]⟩)
  (hlb : d.lhsBatch = []) (hln : d.lhsNonContracting = [0]) (hlc : d.lhsContracting = [1])
  (hrb : d.rhsBatch = []) (hrn : d.rhsNonContracting = [1]) (hrc : d.rhsContracting = [0])
  (hr : d.contr.rank = 1) (hs : d.contr.size ⟨0, by omega⟩ = K) (prec : Option ContractPrecision)

include hlb hln hlc hrb hrn hrc hr hs

/-- The input layer as a tile computes it: the matrix unit's product into the zero tile, the bias recast to one row
    and repeated down the rows, the larger of that and the splat zero. -/
theorem tile_dense_apply (x : FVec Ideal ⟨2, ![A, K]⟩ φ₁) (w : FVec Ideal ⟨2, ![K, B]⟩ φ₂) (c : FVec Ideal ⟨1, ![B]⟩ .f32)
    (h1 : (⟨1, ![B]⟩ : Shape).ShapeCasts ⟨2, ![1, B]⟩) (h2 : (⟨2, ![1, B]⟩ : Shape).Broadcasts ⟨2, ![A, B]⟩)
    (p : Fin A) (q : Fin B) :
    maximumf (addf (matmul d prec x w (constant ⟨2, ![A, B]⟩ .f32 0x00000000#32))
        (broadcastTo ⟨2, ![A, B]⟩ (shapeCast ⟨2, ![1, B]⟩ c h1) h2))
      (broadcast ⟨2, ![A, B]⟩ (Scalar.ofBits (F := Ideal) .f32 0x00000000#32)) (ix2 p q)
      = rect (affine (fun k => x (ix2 p k)) (fun k q => w (ix2 k q)) (fun q => c (ix1 q)) q) := by
  show max (addf (matmul d prec x w (constant ⟨2, ![A, B]⟩ .f32 0x00000000#32))
        (broadcastTo ⟨2, ![A, B]⟩ (shapeCast ⟨2, ![1, B]⟩ c h1) h2) (ix2 p q)) (Ideal.ofBits .f32 0x00000000#32) = _
  rw [tile_affine_apply d hlb hln hlc hrb hrn hrc hr hs prec x w c h1 h2 p q]
  rfl

/-- The input layer as the host computes it: the general product, the bias placed by two broadcasts, the larger of
    that and the rank-0 zero broadcast over the shape. -/
theorem host_dense_apply (x : FVec Ideal ⟨2, ![A, K]⟩ φ₁) (w : FVec Ideal ⟨2, ![K, B]⟩ φ₂) (c : FVec Ideal ⟨1, ![B]⟩ .f32)
    (h1 : (⟨1, ![B]⟩ : Shape).BroadcastsInDim ⟨2, ![1, B]⟩ ![1])
    (h2 : (⟨2, ![1, B]⟩ : Shape).BroadcastsInDim ⟨2, ![A, B]⟩ ![0, 1])
    (dims : Fin (⟨0, ![]⟩ : Shape).rank → Fin (⟨2, ![A, B]⟩ : Shape).rank)
    (h0 : (⟨0, ![]⟩ : Shape).BroadcastsInDim ⟨2, ![A, B]⟩ dims) (p : Fin A) (q : Fin B) :
    maximumf (addf (Host.dotGeneral d prec x w)
        (broadcastInDim ⟨2, ![A, B]⟩ ![0, 1] h2 (broadcastInDim ⟨2, ![1, B]⟩ ![1] h1 c)))
      (broadcastInDim ⟨2, ![A, B]⟩ dims h0 (constant (F := Ideal) ⟨0, ![]⟩ .f32 0x00000000#32)) (ix2 p q)
      = rect (affine (fun k => x (ix2 p k)) (fun k q => w (ix2 k q)) (fun q => c (ix1 q)) q) := by
  show max (addf (Host.dotGeneral d prec x w)
        (broadcastInDim ⟨2, ![A, B]⟩ ![0, 1] h2 (broadcastInDim ⟨2, ![1, B]⟩ ![1] h1 c)) (ix2 p q))
      (broadcastInDim ⟨2, ![A, B]⟩ dims h0 (constant (F := Ideal) ⟨0, ![]⟩ .f32 0x00000000#32) (ix2 p q)) = _
  rw [host_affine_apply d hlb hln hlc hrb hrn hrc hr hs prec x w c h1 h2 p q, scalar_apply]
  rfl

/-- A convolution layer as a tile computes it: the two products into zero tiles added, then the bias row, then the
    rectifier. -/
theorem tile_combine_apply (a h : FVec Ideal ⟨2, ![A, K]⟩ φ₁) (wl wr : FVec Ideal ⟨2, ![K, B]⟩ φ₂)
    (c : FVec Ideal ⟨1, ![B]⟩ .f32)
    (h1 : (⟨1, ![B]⟩ : Shape).ShapeCasts ⟨2, ![1, B]⟩) (h2 : (⟨2, ![1, B]⟩ : Shape).Broadcasts ⟨2, ![A, B]⟩)
    (p : Fin A) (q : Fin B) :
    maximumf (addf (addf (matmul d prec a wl (constant ⟨2, ![A, B]⟩ .f32 0x00000000#32))
          (matmul d prec h wr (constant ⟨2, ![A, B]⟩ .f32 0x00000000#32)))
        (broadcastTo ⟨2, ![A, B]⟩ (shapeCast ⟨2, ![1, B]⟩ c h1) h2))
      (broadcast ⟨2, ![A, B]⟩ (Scalar.ofBits (F := Ideal) .f32 0x00000000#32)) (ix2 p q)
      = rect (((∑ k : Fin K, (a (ix2 p k) : EReal) * (wl (ix2 k q) : EReal))
          + ∑ k : Fin K, (h (ix2 p k) : EReal) * (wr (ix2 k q) : EReal)) + (c (ix1 q) : EReal)) := by
  show max ((matmul d prec a wl (constant ⟨2, ![A, B]⟩ .f32 0x00000000#32) (ix2 p q)
        + matmul d prec h wr (constant ⟨2, ![A, B]⟩ .f32 0x00000000#32) (ix2 p q))
        + broadcastTo ⟨2, ![A, B]⟩ (shapeCast ⟨2, ![1, B]⟩ c h1) h2 (ix2 p q)) (Ideal.ofBits .f32 0x00000000#32) = _
  rw [tile_product_apply d hlb hln hlc hrb hrn hrc hr hs prec a wl p q,
    tile_product_apply d hlb hln hlc hrb hrn hrc hr hs prec h wr p q, broadcastTo_1b_ab_apply, shapeCast_a_1a_apply]
  rfl

/-- A convolution layer as the host computes it: the aggregate's product, the bias placed by two broadcasts, then the
    nodes' own product, then the rectifier. The bias is moved past the second product by commutativity and
    associativity of the extended reals' addition. -/
theorem host_combine_apply (a h : FVec Ideal ⟨2, ![A, K]⟩ φ₁) (wl wr : FVec Ideal ⟨2, ![K, B]⟩ φ₂)
    (c : FVec Ideal ⟨1, ![B]⟩ .f32)
    (h1 : (⟨1, ![B]⟩ : Shape).BroadcastsInDim ⟨2, ![1, B]⟩ ![1])
    (h2 : (⟨2, ![1, B]⟩ : Shape).BroadcastsInDim ⟨2, ![A, B]⟩ ![0, 1])
    (dims : Fin (⟨0, ![]⟩ : Shape).rank → Fin (⟨2, ![A, B]⟩ : Shape).rank)
    (h0 : (⟨0, ![]⟩ : Shape).BroadcastsInDim ⟨2, ![A, B]⟩ dims) (p : Fin A) (q : Fin B) :
    maximumf (addf (addf (Host.dotGeneral d prec a wl)
          (broadcastInDim ⟨2, ![A, B]⟩ ![0, 1] h2 (broadcastInDim ⟨2, ![1, B]⟩ ![1] h1 c)))
        (Host.dotGeneral d prec h wr))
      (broadcastInDim ⟨2, ![A, B]⟩ dims h0 (constant (F := Ideal) ⟨0, ![]⟩ .f32 0x00000000#32)) (ix2 p q)
      = rect (((∑ k : Fin K, (a (ix2 p k) : EReal) * (wl (ix2 k q) : EReal))
          + ∑ k : Fin K, (h (ix2 p k) : EReal) * (wr (ix2 k q) : EReal)) + (c (ix1 q) : EReal)) := by
  show max ((Host.dotGeneral d prec a wl (ix2 p q)
        + broadcastInDim ⟨2, ![A, B]⟩ ![0, 1] h2 (broadcastInDim ⟨2, ![1, B]⟩ ![1] h1 c) (ix2 p q))
        + Host.dotGeneral d prec h wr (ix2 p q))
      (broadcastInDim ⟨2, ![A, B]⟩ dims h0 (constant (F := Ideal) ⟨0, ![]⟩ .f32 0x00000000#32) (ix2 p q)) = _
  rw [host_product_apply d hlb hln hlc hrb hrn hrc hr hs prec a wl p q,
    host_product_apply d hlb hln hlc hrb hrn hrc hr hs prec h wr p q, Cert.BiasRow.down_apply, Cert.BiasRow.row_apply,
    scalar_apply, add_right_comm]
  rfl

end Forms

end Cert.RectLayers

end
-- ==== Proof.SageLayer.lean ====
/-
  The network of this certificate: four mean-aggregating graph convolution layers on 100000 nodes with 128 features,
  after an input layer. One convolution layer is the rectified two-product layer of the neighbours' mean of the features
  (an operation on whole feature arrays, kept a parameter here: both programs spell it with the same host operations)
  and the features themselves, with the layer's own left weights, right weights and bias.
-/
import proofs.«105063_j23124103922158_1_alg».proof.Proof.LibRectLayers

noncomputable section

namespace Cert.Sage

open Idealize.ShloMosaic Cert.RectLayers

section Net

/-- The node features, a layer's weights and a layer's bias of the network this file is about. -/
abbrev Feat : Type := FVec Ideal ⟨2, ![100000, 128]⟩ .f32
abbrev Wt : Type := FVec Ideal ⟨2, ![128, 128]⟩ .f32
abbrev Bs : Type := FVec Ideal ⟨1, ![128]⟩ .f32

/-- One convolution layer over the whole graph: the layer of the neighbours' mean of the features and the features. -/
def conv (mean : Feat → Feat) (wl wr : Wt) (b : Bs) (h : Feat) : Feat := combine (mean h) h wl wr b

/-- The network: four convolution layers, each with its own weights, on the input layer's features. -/
def net (mean : Feat → Feat) (h0 : Feat) (wl0 wr0 : Wt) (b0 : Bs) (wl1 wr1 : Wt) (b1 : Bs) (wl2 wr2 : Wt) (b2 : Bs)
    (wl3 wr3 : Wt) (b3 : Bs) : Feat :=
  conv mean wl3 wr3 b3 (conv mean wl2 wr2 b2 (conv mean wl1 wr1 b1 (conv mean wl0 wr0 b0 h0)))

end Net

end Cert.Sage

end
-- ==== Proof.KernelHost.lean ====
/-
  The host side of the graph convolution, as the printed program spells it.

  The edge list is a 2 × 1600000 integer array: row 0 the source node of each edge, row 1 the target node. A node's
  in-degree is the number of edges that target it (ones added at the targets), its inverse degree one over the larger
  of that and one. The neighbours' mean of a feature array gathers the source node's row for each edge (a negative
  index counted from the end), adds the gathered rows at the targets, and scales each node's row by its inverse
  degree. Layer l's weights and bias are slice l of the stacked arrays with the leading unit axis dropped.
-/
import proofs.«105063_j23124103922158_1_alg».proof.Proof.Gen.KernelIdeal
import Idealize.ShloMosaic.PureOps.Ideal

noncomputable section

namespace Cert.KernelIdeal.Net

open Cert.KernelIdeal Cert.KernelIdeal.Facts₀ Idealize.ShloMosaic Idealize.ShloMosaic.TcCoe

abbrev Edges : Type := (⟨S2x1600000, .i32⟩ : BufTy).Contents (Elt Ideal)
abbrev Ends : Type := (⟨S1600000, .i32⟩ : BufTy).Contents (Elt Ideal)
abbrev Col : Type := (⟨S100000x1, .f32⟩ : BufTy).Contents (Elt Ideal)
abbrev Feat : Type := (⟨S100000x128, .f32⟩ : BufTy).Contents (Elt Ideal)
abbrev Wts : Type := (⟨S4x128x128, .f32⟩ : BufTy).Contents (Elt Ideal)
abbrev Wt : Type := (⟨S128x128, .f32⟩ : BufTy).Contents (Elt Ideal)
abbrev Bss : Type := (⟨S4x128, .f32⟩ : BufTy).Contents (Elt Ideal)
abbrev Bs : Type := (⟨S128, .f32⟩ : BufTy).Contents (Elt Ideal)

/-- The source node of each edge. -/
def srcOf (e : Edges) : Ends :=
  shapeCast _ (extractStridedSlice S1x1600000 ![0, 0] e slices_S2x1600000_S1x1600000_0_0) shapeCasts_S1x1600000_S1600000

/-- The target node of each edge. -/
def dstOf (e : Edges) : Ends :=
  shapeCast _ (extractStridedSlice S1x1600000 ![1, 0] e slices_S2x1600000_S1x1600000_1_0) shapeCasts_S1x1600000_S1600000

/-- One over the larger of a node's in-degree and one, as a column. -/
def invOf (d : Ends) : Col :=
  broadcastInDim S100000x1 ![0] bcast_S100000_S100000x1_0
    (Host.divf (F := Ideal) (broadcastInDim S100000 ![] bcast_S_S100000 (constant (F := Ideal) S_ .f32 0x3F800000#32))
      (maximumf (Host.scatterAdd (F := Ideal) scatter_S100000_S1600000x1_S1600000_n_0_0_1
          (broadcastInDim S100000 ![] bcast_S_S100000 (constant (F := Ideal) S_ .f32 0x00000000#32))
          (broadcastInDim S1600000x1 ![0] bcast_S1600000_S1600000x1_0 d)
          (broadcastInDim S1600000 ![] bcast_S_S1600000 (constant (F := Ideal) S_ .f32 0x3F800000#32)))
        (broadcastInDim S100000 ![] bcast_S_S100000 (constant (F := Ideal) S_ .f32 0x3F800000#32))))

/-- The neighbours' mean of the rows of h, from the edges' ends and the inverse degrees. -/
def meanOf (s d : Ends) (inv : Col) (h : Feat) : Feat :=
  mulf (Host.scatterAdd (F := Ideal) scatter_S100000x128_S1600000x1_S1600000x128_1_0_0_1
      (broadcastInDim S100000x128 ![] bcast_S_S100000x128 (constant (F := Ideal) S_ .f32 0x00000000#32))
      (broadcastInDim S1600000x1 ![0] bcast_S1600000_S1600000x1_0 d)
      (Host.gather gather_S100000x128_S1600000x1_S1600000x128_1_0_n_n_0_1_1128 h
        (broadcastInDim S1600000x1 ![0] bcast_S1600000_S1600000x1_0
          (select (cmpi .slt s (broadcastInDim S1600000 ![] bcast_S_S1600000 (constantI S_ 32 0#32)))
            (addi s (broadcastInDim S1600000 ![] bcast_S_S1600000 (constantI S_ 32 100000#32))) s))))
    (broadcastInDim S100000x128 ![0, 1] bcast_S100000x1_S100000x128_0_1 inv)

/-- The neighbours' mean over the graph the edge list describes. -/
def mean (e : Edges) (h : Feat) : Feat := meanOf (srcOf e) (dstOf e) (invOf (dstOf e)) h

/-- Layer 0's weights out of a stack of four. -/
def wAt0 (w : Wts) : Wt :=
  shapeCast _ (extractStridedSlice S1x128x128 ![0, 0, 0] w slices_S4x128x128_S1x128x128_0_0_0) shapeCasts_S1x128x128_S128x128

/-- Layer 0's bias out of a stack of four. -/
def bAt0 (b : Bss) : Bs :=
  shapeCast _ (extractStridedSlice S1x128 ![0, 0] b slices_S4x128_S1x128_0_0) shapeCasts_S1x128_S128

/-- Layer 1's weights out of a stack of four. -/
def wAt1 (w : Wts) : Wt :=
  shapeCast _ (extractStridedSlice S1x128x128 ![1, 0, 0] w slices_S4x128x128_S1x128x128_1_0_0) shapeCasts_S1x128x128_S128x128

/-- Layer 1's bias out of a stack of four. -/
def bAt1 (b : Bss) : Bs :=
  shapeCast _ (extractStridedSlice S1x128 ![1, 0] b slices_S4x128_S1x128_1_0) shapeCasts_S1x128_S128

/-- Layer 2's weights out of a stack of four. -/
def wAt2 (w : Wts) : Wt :=
  shapeCast _ (extractStridedSlice S1x128x128 ![2, 0, 0] w slices_S4x128x128_S1x128x128_2_0_0) shapeCasts_S1x128x128_S128x128

/-- Layer 2's bias out of a stack of four. -/
def bAt2 (b : Bss) : Bs :=
  shapeCast _ (extractStridedSlice S1x128 ![2, 0] b slices_S4x128_S1x128_2_0) shapeCasts_S1x128_S128

/-- Layer 3's weights out of a stack of four. -/
def wAt3 (w : Wts) : Wt :=
  shapeCast _ (extractStridedSlice S1x128x128 ![3, 0, 0] w slices_S4x128x128_S1x128x128_3_0_0) shapeCasts_S1x128x128_S128x128

/-- Layer 3's bias out of a stack of four. -/
def bAt3 (b : Bss) : Bs :=
  shapeCast _ (extractStridedSlice S1x128 ![3, 0] b slices_S4x128_S1x128_3_0) shapeCasts_S1x128_S128

end Cert.KernelIdeal.Net

end
-- ==== Proof.EmbedArray.lean ====
/-
  The input layer's kernel, from blocks to the whole array.

  The first launch runs over 20 grid points. At point t it reads rows 5000 t … 5000 t + 4999 of the features, the
  whole weight matrix and the whole bias, and writes rows 5000 t … 5000 t + 4999 of its result: the rectified affine
  image of those rows. Entry (p, q) of the layer reads only row p of the features, so a block of rows of the layer of the
  whole array is the layer of that block of rows; the 20 blocks cover the 100000 rows, so the result array ends holding
  the layer of the whole arrays, whatever the arrays held when the launch was entered.
-/
import proofs.«105063_j23124103922158_1_alg».proof.Proof.Gen.KernelIdeal.Frame
import proofs.«105063_j23124103922158_1_alg».proof.Proof.SageLayer
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Embed

open Cert.KernelIdeal Cert.KernelIdeal.Gen

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The tile's arithmetic is the input layer of the tile's rows. -/
theorem tile_eq (x0 : FVec Ideal S5000x300 .f32) (x1 : FVec Ideal S300x128 .f32) (x2 : FVec Ideal S128 .f32) :
    k0_pay1 (F := Ideal) x0 x1 x2 = Cert.RectLayers.dense x0 x1 x2 := by
  funext j
  obtain ⟨p, q, rfl⟩ : ∃ (p : Fin 5000) (q : Fin 128), j = ix2 p q := ⟨j 0, j 1, eq_ix2 j⟩
  rw [Cert.RectLayers.dense_ix2]
  unfold k0_pay1
  exact Cert.RectLayers.tile_dense_apply dot_S5000x300_S300x128_S5000x128_1_0_0_1_n_n rfl rfl rfl rfl rfl rfl rfl rfl none
    (truncf .bf16 x0 bitsLt_bf16_f32) (truncf .bf16 x1 bitsLt_bf16_f32) x2 shapeCasts_S128_S1x128
    broadcasts_S1x128_S5000x128 p q

/-- Where each window's block sits at point t: the features' and the result's at block row t, the weights' and the
    bias's at the origin. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0 ∧ win0_2.index t (0 : Fin 1) = 0
    ∧ win0_3.index t (0 : Fin 2) = t.val ∧ win0_3.index t (1 : Fin 2) = 0 :=
  (by decide +kernel : ∀ t : Fin grid0.N, _)

/-- What point t writes back is rows 5000 t … of the input layer of the arrays as the launch finds them. -/
theorem flushed_eq (c : Dev nD) (t : Fin cfg0.N) :
    (dat0 V c).flushed 3 t = ((cfg0.win 3).blk t).view.read (Elt Ideal)
      (Cert.RectLayers.dense (V c main_arg0) (V c main_arg2) (V c main_arg3)) := by
  show (cfg0.win 3).cut (grid0.coords t) ((dat0 V c).after 3 t) = _
  rw [after0_3]
  unfold out0_3
  rw [View.canon_unit_zero hz2]
  simp only [View.ld_unit_zero (S := S5000x300) hz2, View.ld_unit_zero (S := S300x128) hz2,
    View.ld_unit_zero (S := S128) hz1]
  rw [tile_eq]
  obtain ⟨e0, e1, e2, e3, e4, e5, e6⟩ := idx_facts t
  funext j
  show Cert.RectLayers.dense (iblk0 V c 0 t) (iblk0 V c 1 t) (iblk0 V c 2 t) j
    = Cert.RectLayers.dense (V c main_arg0) (V c main_arg2) (V c main_arg3) (((cfg0.win 3).blk t).view.emb j)
  refine Cert.RectLayers.dense_congr _ _ _ _ _ _ _ _ (fun k => ?_) (fun k q => ?_) (fun q => ?_) ?_
  · show V c main_arg0 (((cfg0.win 0).blk t).view.emb (ix2 (j 0) k))
      = V c main_arg0 (ix2 ((((cfg0.win 3).blk t).view.emb j) 0) k)
    refine congrArg (V c main_arg0) (funext fun a => Fin.ext ?_)
    match a with
    | ⟨0, _⟩ =>
      show win0_0.index t (0 : Fin 2) * 5000 + 1 * (j 0).val = win0_3.index t (0 : Fin 2) * 5000 + 1 * (j 0).val
      rw [e0, e5]
    | ⟨1, _⟩ =>
      show win0_0.index t (1 : Fin 2) * 300 + 1 * k.val = k.val
      rw [e1]; omega
  · show V c main_arg2 (((cfg0.win 1).blk t).view.emb (ix2 k q)) = V c main_arg2 (ix2 k q)
    refine congrArg (V c main_arg2) (funext fun a => Fin.ext ?_)
    match a with
    | ⟨0, _⟩ =>
      show win0_1.index t (0 : Fin 2) * 300 + 1 * k.val = k.val
      rw [e2]; omega
    | ⟨1, _⟩ =>
      show win0_1.index t (1 : Fin 2) * 128 + 1 * q.val = q.val
      rw [e3]; omega
  · show V c main_arg3 (((cfg0.win 2).blk t).view.emb (ix1 q)) = V c main_arg3 (ix1 q)
    refine congrArg (V c main_arg3) (funext fun a => Fin.ext ?_)
    match a with
    | ⟨0, _⟩ =>
      show win0_2.index t (0 : Fin 1) * 128 + 1 * q.val = q.val
      rw [e4]; omega
  · show (j 1).val = win0_3.index t (1 : Fin 2) * 128 + 1 * (j 1).val
    rw [e6]; omega

/-- An index of the result array is in point t's block iff each coordinate is in the block's range on its axis. -/
theorem mem_blk (t : Fin cfg0.N) (i : S100000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v13).slice (win0_3.rect t)).set ↔ _
  rw [View.set_slice_whole, Rect.mem_set_unit]
  exact Iff.rfl

/-- Row r of the result is written by point r / 5000: the 20 blocks cover the array. -/
theorem cover (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : grid0.N = 20 := N_0
  obtain ⟨t, ht⟩ : ∃ t : Fin cfg0.N, t.val = (i 0).val / 5000 :=
    ⟨⟨(i 0).val / 5000, by show (i 0).val / 5000 < grid0.N; rw [hN]; omega⟩, rfl⟩
  obtain ⟨e0, e1, e2, e3, e4, e5, e6⟩ := idx_facts t
  refine ⟨t, flush0_3 t, ?_⟩
  rw [mem_blk]
  intro a
  match a with
  | ⟨0, _⟩ =>
    show win0_3.index t (0 : Fin 2) * 5000 ≤ (i 0).val ∧ (i 0).val < win0_3.index t (0 : Fin 2) * 5000 + 5000
    rw [e5, ht]; omega
  | ⟨1, _⟩ =>
    show win0_3.index t (1 : Fin 2) * 128 ≤ (i 1).val ∧ (i 1).val < win0_3.index t (1 : Fin 2) * 128 + 128
    rw [e6]; omega

/-- The result array at the launch's exit: the input layer of the arrays as the launch found them. -/
theorem final (c : Dev nD) :
    (dat0 V c).arrAt 3 cfg0.N = Cert.RectLayers.dense (V c main_arg0) (V c main_arg2) (V c main_arg3) :=
  (dat0 V c).arrAt_eq_of_cover 3 _ (fun t _ => flushed_eq V c t) cover

end Cert.KernelIdeal.Embed

end
-- ==== Proof.ConvArray1.lean ====
/-
  Convolution layer 1's kernel, from blocks to the whole array.

  The launch runs over 20 grid points. At point t it reads rows 5000 t … 5000 t + 4999 of the neighbours' mean and of
  the nodes' own features, the two whole 128 × 128 weight matrices and the whole bias, and writes rows 5000 t … of its
  result: the rectified sum of the two products and the bias. Entry (p, q) of the layer reads only row p of the two
  row operands, so a block of rows of the layer of the whole arrays is the layer of that block of rows; the 20 blocks
  cover the 100000 rows, so the result array ends holding the layer of the whole arrays as the launch found them.
-/
import proofs.«105063_j23124103922158_1_alg».proof.Proof.Gen.KernelIdeal.Frame
import proofs.«105063_j23124103922158_1_alg».proof.Proof.SageLayer
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Conv1

open Cert.KernelIdeal Cert.KernelIdeal.Gen

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The tile's arithmetic is the convolution layer of the tile's rows. -/
theorem tile_eq (x0 x1 : FVec Ideal S5000x128 .f32) (x2 x3 : FVec Ideal S128x128 .f32) (x4 : FVec Ideal S128 .f32) :
    k1_pay1 (F := Ideal) x0 x1 x2 x3 x4 = Cert.RectLayers.combine x0 x1 x2 x3 x4 := by
  funext j
  obtain ⟨p, q, rfl⟩ : ∃ (p : Fin 5000) (q : Fin 128), j = ix2 p q := ⟨j 0, j 1, eq_ix2 j⟩
  rw [Cert.RectLayers.combine_ix2]
  unfold k1_pay1
  simp only [shapeCast_self]
  exact Cert.RectLayers.tile_combine_apply dot_S5000x128_S128x128_S5000x128_1_0_0_1_n_n rfl rfl rfl rfl rfl rfl rfl rfl none
    (truncf .bf16 x0 bitsLt_bf16_f32) (truncf .bf16 x1 bitsLt_bf16_f32) (truncf .bf16 x2 bitsLt_bf16_f32)
    (truncf .bf16 x3 bitsLt_bf16_f32) x4 shapeCasts_S128_S1x128 broadcasts_S1x128_S5000x128 p q

/-- Where each window's block sits at point t: the two row operands' and the result's at block row t, the weights'
    and the bias's at the origin. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0 ∧ win1_4.index t (0 : Fin 1) = 0
    ∧ win1_5.index t (0 : Fin 2) = t.val ∧ win1_5.index t (1 : Fin 2) = 0 :=
  (by decide +kernel : ∀ t : Fin grid1.N, _)

set_option maxHeartbeats 4000000 in
/-- What point t writes back is rows 5000 t … of the convolution layer of the arrays as the launch finds them. -/
theorem flushed_eq (c : Dev nD) (t : Fin cfg1.N) :
    (dat1 V c).flushed 5 t = ((cfg1.win 5).blk t).view.read (Elt Ideal)
      (Cert.RectLayers.combine (V c main_v25) (V c main_v13) (V c main_v27) (V c main_v29) (V c main_v31)) := by
  show (cfg1.win 5).cut (grid1.coords t) ((dat1 V c).after 5 t) = _
  rw [after1_5]
  unfold out1_5
  rw [View.canon_unit_zero hz2]
  simp only [View.ld_unit_zero (S := S5000x128) hz2, View.ld_unit_zero (S := S128x128) hz2,
    View.ld_unit_zero (S := S128) hz1]
  rw [tile_eq]
  obtain ⟨e0, e1, e2, e3, e4, e5, e6, e7, e8, e9, e10⟩ := idx_facts t
  funext j
  show Cert.RectLayers.combine (iblk1 V c 0 t) (iblk1 V c 1 t) (iblk1 V c 2 t) (iblk1 V c 3 t) (iblk1 V c 4 t) j
    = Cert.RectLayers.combine (V c main_v25) (V c main_v13) (V c main_v27) (V c main_v29) (V c main_v31)
        (((cfg1.win 5).blk t).view.emb j)
  refine Cert.RectLayers.combine_congr _ _ _ _ _ _ _ _ _ _ _ _ (fun k => ?_) (fun k => ?_) (fun k q => ?_) (fun k q => ?_)
    (fun q => ?_) ?_
  · show V c main_v25 (((cfg1.win 0).blk t).view.emb (ix2 (j 0) k))
      = V c main_v25 (ix2 ((((cfg1.win 5).blk t).view.emb j) 0) k)
    refine congrArg (V c main_v25) (funext fun a => Fin.ext ?_)
    match a with
    | ⟨0, _⟩ =>
      show win1_0.index t (0 : Fin 2) * 5000 + 1 * (j 0).val = win1_5.index t (0 : Fin 2) * 5000 + 1 * (j 0).val
      rw [e0, e9]
    | ⟨1, _⟩ =>
      show win1_0.index t (1 : Fin 2) * 128 + 1 * k.val = k.val
      rw [e1]; omega
  · show V c main_v13 (((cfg1.win 1).blk t).view.emb (ix2 (j 0) k))
      = V c main_v13 (ix2 ((((cfg1.win 5).blk t).view.emb j) 0) k)
    refine congrArg (V c main_v13) (funext fun a => Fin.ext ?_)
    match a with
    | ⟨0, _⟩ =>
      show win1_1.index t (0 : Fin 2) * 5000 + 1 * (j 0).val = win1_5.index t (0 : Fin 2) * 5000 + 1 * (j 0).val
      rw [e2, e9]
    | ⟨1, _⟩ =>
      show win1_1.index t (1 : Fin 2) * 128 + 1 * k.val = k.val
      rw [e3]; omega
  · show V c main_v27 (((cfg1.win 2).blk t).view.emb (ix2 k q)) = V c main_v27 (ix2 k q)
    refine congrArg (V c main_v27) (funext fun a => Fin.ext ?_)
    match a with
    | ⟨0, _⟩ =>
      show win1_2.index t (0 : Fin 2) * 128 + 1 * k.val = k.val
      rw [e4]; omega
    | ⟨1, _⟩ =>
      show win1_2.index t (1 : Fin 2) * 128 + 1 * q.val = q.val
      rw [e5]; omega
  · show V c main_v29 (((cfg1.win 3).blk t).view.emb (ix2 k q)) = V c main_v29 (ix2 k q)
    refine congrArg (V c main_v29) (funext fun a => Fin.ext ?_)
    match a with
    | ⟨0, _⟩ =>
      show win1_3.index t (0 : Fin 2) * 128 + 1 * k.val = k.val
      rw [e6]; omega
    | ⟨1, _⟩ =>
      show win1_3.index t (1 : Fin 2) * 128 + 1 * q.val = q.val
      rw [e7]; omega
  · show V c main_v31 (((cfg1.win 4).blk t).view.emb (ix1 q)) = V c main_v31 (ix1 q)
    refine congrArg (V c main_v31) (funext fun a => Fin.ext ?_)
    match a with
    | ⟨0, _⟩ =>
      show win1_4.index t (0 : Fin 1) * 128 + 1 * q.val = q.val
      rw [e8]; omega
  · show (j 1).val = win1_5.index t (1 : Fin 2) * 128 + 1 * (j 1).val
    rw [e10]; omega

/-- An index of the result array is in point t's block iff each coordinate is in the block's range on its axis. -/
theorem mem_blk (t : Fin cfg1.N) (i : S100000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v32).slice (win1_5.rect t)).set ↔ _
  rw [View.set_slice_whole, Rect.mem_set_unit]
  exact Iff.rfl

/-- Row r of the result is written by point r / 5000: the 20 blocks cover the array. -/
theorem cover (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have hN : grid1.N = 20 := N_1
  obtain ⟨t, ht⟩ : ∃ t : Fin cfg1.N, t.val = (i 0).val / 5000 :=
    ⟨⟨(i 0).val / 5000, by show (i 0).val / 5000 < grid1.N; rw [hN]; omega⟩, rfl⟩
  obtain ⟨e0, e1, e2, e3, e4, e5, e6, e7, e8, e9, e10⟩ := idx_facts t
  refine ⟨t, flush1_5 t, ?_⟩
  rw [mem_blk]
  intro a
  match a with
  | ⟨0, _⟩ =>
    show win1_5.index t (0 : Fin 2) * 5000 ≤ (i 0).val ∧ (i 0).val < win1_5.index t (0 : Fin 2) * 5000 + 5000
    rw [e9, ht]; omega
  | ⟨1, _⟩ =>
    show win1_5.index t (1 : Fin 2) * 128 ≤ (i 1).val ∧ (i 1).val < win1_5.index t (1 : Fin 2) * 128 + 128
    rw [e10]; omega

/-- The result array at the launch's exit: the convolution layer of the arrays as the launch found them. -/
theorem final (c : Dev nD) :
    (dat1 V c).arrAt 5 cfg1.N
      = Cert.RectLayers.combine (V c main_v25) (V c main_v13) (V c main_v27) (V c main_v29) (V c main_v31) :=
  (dat1 V c).arrAt_eq_of_cover 5 _ (fun t _ => flushed_eq V c t) cover

end Cert.KernelIdeal.Conv1

end
-- ==== Proof.ConvArray2.lean ====
/-
  Convolution layer 2's kernel, from blocks to the whole array.

  The launch runs over 20 grid points. At point t it reads rows 5000 t … 5000 t + 4999 of the neighbours' mean and of
  the nodes' own features, the two whole 128 × 128 weight matrices and the whole bias, and writes rows 5000 t … of its
  result: the rectified sum of the two products and the bias. Entry (p, q) of the layer reads only row p of the two
  row operands, so a block of rows of the layer of the whole arrays is the layer of that block of rows; the 20 blocks
  cover the 100000 rows, so the result array ends holding the layer of the whole arrays as the launch found them.
-/
import proofs.«105063_j23124103922158_1_alg».proof.Proof.Gen.KernelIdeal.Frame
import proofs.«105063_j23124103922158_1_alg».proof.Proof.SageLayer
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Conv2

open Cert.KernelIdeal Cert.KernelIdeal.Gen

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The tile's arithmetic is the convolution layer of the tile's rows. -/
theorem tile_eq (x0 x1 : FVec Ideal S5000x128 .f32) (x2 x3 : FVec Ideal S128x128 .f32) (x4 : FVec Ideal S128 .f32) :
    k2_pay1 (F := Ideal) x0 x1 x2 x3 x4 = Cert.RectLayers.combine x0 x1 x2 x3 x4 := by
  funext j
  obtain ⟨p, q, rfl⟩ : ∃ (p : Fin 5000) (q : Fin 128), j = ix2 p q := ⟨j 0, j 1, eq_ix2 j⟩
  rw [Cert.RectLayers.combine_ix2]
  unfold k2_pay1
  simp only [shapeCast_self]
  exact Cert.RectLayers.tile_combine_apply dot_S5000x128_S128x128_S5000x128_1_0_0_1_n_n rfl rfl rfl rfl rfl rfl rfl rfl none
    (truncf .bf16 x0 bitsLt_bf16_f32) (truncf .bf16 x1 bitsLt_bf16_f32) (truncf .bf16 x2 bitsLt_bf16_f32)
    (truncf .bf16 x3 bitsLt_bf16_f32) x4 shapeCasts_S128_S1x128 broadcasts_S1x128_S5000x128 p q

/-- Where each window's block sits at point t: the two row operands' and the result's at block row t, the weights'
    and the bias's at the origin. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0 ∧ win2_4.index t (0 : Fin 1) = 0
    ∧ win2_5.index t (0 : Fin 2) = t.val ∧ win2_5.index t (1 : Fin 2) = 0 :=
  (by decide +kernel : ∀ t : Fin grid2.N, _)

set_option maxHeartbeats 4000000 in
/-- What point t writes back is rows 5000 t … of the convolution layer of the arrays as the launch finds them. -/
theorem flushed_eq (c : Dev nD) (t : Fin cfg2.N) :
    (dat2 V c).flushed 5 t = ((cfg2.win 5).blk t).view.read (Elt Ideal)
      (Cert.RectLayers.combine (V c main_v44) (V c main_v32) (V c main_v46) (V c main_v48) (V c main_v50)) := by
  show (cfg2.win 5).cut (grid2.coords t) ((dat2 V c).after 5 t) = _
  rw [after2_5]
  unfold out2_5
  rw [View.canon_unit_zero hz2]
  simp only [View.ld_unit_zero (S := S5000x128) hz2, View.ld_unit_zero (S := S128x128) hz2,
    View.ld_unit_zero (S := S128) hz1]
  rw [tile_eq]
  obtain ⟨e0, e1, e2, e3, e4, e5, e6, e7, e8, e9, e10⟩ := idx_facts t
  funext j
  show Cert.RectLayers.combine (iblk2 V c 0 t) (iblk2 V c 1 t) (iblk2 V c 2 t) (iblk2 V c 3 t) (iblk2 V c 4 t) j
    = Cert.RectLayers.combine (V c main_v44) (V c main_v32) (V c main_v46) (V c main_v48) (V c main_v50)
        (((cfg2.win 5).blk t).view.emb j)
  refine Cert.RectLayers.combine_congr _ _ _ _ _ _ _ _ _ _ _ _ (fun k => ?_) (fun k => ?_) (fun k q => ?_) (fun k q => ?_)
    (fun q => ?_) ?_
  · show V c main_v44 (((cfg2.win 0).blk t).view.emb (ix2 (j 0) k))
      = V c main_v44 (ix2 ((((cfg2.win 5).blk t).view.emb j) 0) k)
    refine congrArg (V c main_v44) (funext fun a => Fin.ext ?_)
    match a with
    | ⟨0, _⟩ =>
      show win2_0.index t (0 : Fin 2) * 5000 + 1 * (j 0).val = win2_5.index t (0 : Fin 2) * 5000 + 1 * (j 0).val
      rw [e0, e9]
    | ⟨1, _⟩ =>
      show win2_0.index t (1 : Fin 2) * 128 + 1 * k.val = k.val
      rw [e1]; omega
  · show V c main_v32 (((cfg2.win 1).blk t).view.emb (ix2 (j 0) k))
      = V c main_v32 (ix2 ((((cfg2.win 5).blk t).view.emb j) 0) k)
    refine congrArg (V c main_v32) (funext fun a => Fin.ext ?_)
    match a with
    | ⟨0, _⟩ =>
      show win2_1.index t (0 : Fin 2) * 5000 + 1 * (j 0).val = win2_5.index t (0 : Fin 2) * 5000 + 1 * (j 0).val
      rw [e2, e9]
    | ⟨1, _⟩ =>
      show win2_1.index t (1 : Fin 2) * 128 + 1 * k.val = k.val
      rw [e3]; omega
  · show V c main_v46 (((cfg2.win 2).blk t).view.emb (ix2 k q)) = V c main_v46 (ix2 k q)
    refine congrArg (V c main_v46) (funext fun a => Fin.ext ?_)
    match a with
    | ⟨0, _⟩ =>
      show win2_2.index t (0 : Fin 2) * 128 + 1 * k.val = k.val
      rw [e4]; omega
    | ⟨1, _⟩ =>
      show win2_2.index t (1 : Fin 2) * 128 + 1 * q.val = q.val
      rw [e5]; omega
  · show V c main_v48 (((cfg2.win 3).blk t).view.emb (ix2 k q)) = V c main_v48 (ix2 k q)
    refine congrArg (V c main_v48) (funext fun a => Fin.ext ?_)
    match a with
    | ⟨0, _⟩ =>
      show win2_3.index t (0 : Fin 2) * 128 + 1 * k.val = k.val
      rw [e6]; omega
    | ⟨1, _⟩ =>
      show win2_3.index t (1 : Fin 2) * 128 + 1 * q.val = q.val
      rw [e7]; omega
  · show V c main_v50 (((cfg2.win 4).blk t).view.emb (ix1 q)) = V c main_v50 (ix1 q)
    refine congrArg (V c main_v50) (funext fun a => Fin.ext ?_)
    match a with
    | ⟨0, _⟩ =>
      show win2_4.index t (0 : Fin 1) * 128 + 1 * q.val = q.val
      rw [e8]; omega
  · show (j 1).val = win2_5.index t (1 : Fin 2) * 128 + 1 * (j 1).val
    rw [e10]; omega

/-- An index of the result array is in point t's block iff each coordinate is in the block's range on its axis. -/
theorem mem_blk (t : Fin cfg2.N) (i : S100000x128.Idx) :
    i ∈ ((cfg2.win 5).blk t).view.set ↔ ∀ a : Fin 2, win2_5.index t a * S5000x128.size a ≤ (i a).val
      ∧ (i a).val < win2_5.index t a * S5000x128.size a + S5000x128.size a := by
  show i ∈ ((View.whole main_v51).slice (win2_5.rect t)).set ↔ _
  rw [View.set_slice_whole, Rect.mem_set_unit]
  exact Iff.rfl

/-- Row r of the result is written by point r / 5000: the 20 blocks cover the array. -/
theorem cover (i : S100000x128.Idx) :
    ∃ t : Fin cfg2.N, (cfg2.win 5).flush t = true ∧ i ∈ ((cfg2.win 5).blk t).view.set := by
  have hi0 : (i 0).val < 100000 := (i 0).isLt
  have hi1 : (i 1).val < 128 := (i 1).isLt
  have hN : grid2.N = 20 := N_2
  obtain ⟨t, ht⟩ : ∃ t : Fin cfg2.N, t.val = (i 0).val / 5000 :=
    ⟨⟨(i 0).val / 5000, by show (i 0).val / 5000 < grid2.N; rw [hN]; omega⟩, rfl⟩
  obtain ⟨e0, e1, e2, e3, e4, e5, e6, e7, e8, e9, e10⟩ := idx_facts t
  refine ⟨t, flush2_5 t, ?_⟩
  rw [mem_blk]
  intro a
  match a with
  | ⟨0, _⟩ =>
    show win2_5.index t (0 : Fin 2) * 5000 ≤ (i 0).val ∧ (i 0).val < win2_5.index t (0 : Fin 2) * 5000 + 5000
    rw [e9, ht]; omega
  | ⟨1, _⟩ =>
    show win2_5.index t (1 : Fin 2) * 128 ≤ (i 1).val ∧ (i 1).val < win2_5.index t (1 : Fin 2) * 128 + 128
    rw [e10]; omega

/-- The result array at the launch's exit: the convolution layer of the arrays as the launch found them. -/
theorem final (c : Dev nD) :
    (dat2 V c).arrAt 5 cfg2.N
      = Cert.RectLayers.combine (V c main_v44) (V c main_v32) (V c main_v46) (V c main_v48) (V c main_v50) :=
  (dat2 V c).arrAt_eq_of_cover 5 _ (fun t _ => flushed_eq V c t) cover

end Cert.KernelIdeal.Conv2

end
-- ==== Proof.ConvArray3.lean ====
/-
  Convolution layer 3's kernel, from blocks to the whole array.

  The launch runs over 20 grid points. At point t it reads rows 5000 t … 5000 t + 4999 of the neighbours' mean and of
  the nodes' own features, the two whole 128 × 128 weight matrices and the whole bias, and writes rows 5000 t … of its
  result: the rectified sum of the two products and the bias. Entry (p, q) of the layer reads only row p of the two
  row operands, so a block of rows of the layer of the whole arrays is the layer of that block of rows; the 20 blocks
  cover the 100000 rows, so the result array ends holding the layer of the whole arrays as the launch found them.
-/
import proofs.«105063_j23124103922158_1_alg».proof.Proof.Gen.KernelIdeal.Frame
import proofs.«105063_j23124103922158_1_alg».proof.Proof.SageLayer
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Conv3

open Cert.KernelIdeal Cert.KernelIdeal.Gen

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The tile's arithmetic is the convolution layer of the tile's rows. -/
theorem tile_eq (x0 x1 : FVec Ideal S5000x128 .f32) (x2 x3 : FVec Ideal S128x128 .f32) (x4 : FVec Ideal S128 .f32) :
    k3_pay1 (F := Ideal) x0 x1 x2 x3 x4 = Cert.RectLayers.combine x0 x1 x2 x3 x4 := by
  funext j
  obtain ⟨p, q, rfl⟩ : ∃ (p : Fin 5000) (q : Fin 128), j = ix2 p q := ⟨j 0, j 1, eq_ix2 j⟩
  rw [Cert.RectLayers.combine_ix2]
  unfold k3_pay1
  simp only [shapeCast_self]
  exact Cert.RectLayers.tile_combine_apply dot_S5000x128_S128x128_S5000x128_1_0_0_1_n_n rfl rfl rfl rfl rfl rfl rfl rfl none
    (truncf .bf16 x0 bitsLt_bf16_f32) (truncf .bf16 x1 bitsLt_bf16_f32) (truncf .bf16 x2 bitsLt_bf16_f32)
    (truncf .bf16 x3 bitsLt_bf16_f32) x4 shapeCasts_S128_S1x128 broadcasts_S1x128_S5000x128 p q

/-- Where each window's block sits at point t: the two row operands' and the result's at block row t, the weights'
    and the bias's at the origin. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0 ∧ win3_4.index t (0 : Fin 1) = 0
    ∧ win3_5.index t (0 : Fin 2) = t.val ∧ win3_5.index t (1 : Fin 2) = 0 :=
  (by decide +kernel : ∀ t : Fin grid3.N, _)

set_option maxHeartbeats 4000000 in
/-- What point t writes back is rows 5000 t … of the convolution layer of the arrays as the launch finds them. -/
theorem flushed_eq (c : Dev nD) (t : Fin cfg3.N) :
    (dat3 V c).flushed 5 t = ((cfg3.win 5).blk t).view.read (Elt Ideal)
      (Cert.RectLayers.combine (V c main_v63) (V c main_v51) (V c main_v65) (V c main_v67) (V c main_v69)) := by
  show (cfg3.win 5).cut (grid3.coords t) ((dat3 V c).after 5 t) = _
  rw [after3_5]
  unfold out3_5
  rw [View.canon_unit_zero hz2]
  simp only [View.ld_unit_zero (S := S5000x128) hz2, View.ld_unit_zero (S := S128x128) hz2,
    View.ld_unit_zero (S := S128) hz1]
  rw [tile_eq]
  obtain ⟨e0, e1, e2, e3, e4, e5, e6, e7, e8, e9, e10⟩ := idx_facts t
  funext j
  show Cert.RectLayers.combine (iblk3 V c 0 t) (iblk3 V c 1 t) (iblk3 V c 2 t) (iblk3 V c 3 t) (iblk3 V c 4 t) j
    = Cert.RectLayers.combine (V c main_v63) (V c main_v51) (V c main_v65) (V c main_v67) (V c main_v69)
        (((cfg3.win 5).blk t).view.emb j)
  refine Cert.RectLayers.combine_congr _ _ _ _ _ _ _ _ _ _ _ _ (fun k => ?_) (fun k => ?_) (fun k q => ?_) (fun k q => ?_)
    (fun q => ?_) ?_
  · show V c main_v63 (((cfg3.win 0).blk t).view.emb (ix2 (j 0) k))
      = V c main_v63 (ix2 ((((cfg3.win 5).blk t).view.emb j) 0) k)
    refine congrArg (V c main_v63) (funext fun a => Fin.ext ?_)
    match a with
    | ⟨0, _⟩ =>
      show win3_0.index t (0 : Fin 2) * 5000 + 1 * (j 0).val = win3_5.index t (0 : Fin 2) * 5000 + 1 * (j 0).val
      rw [e0, e9]
    | ⟨1, _⟩ =>
      show win3_0.index t (1 : Fin 2) * 128 + 1 * k.val = k.val
      rw [e1]; omega
  · show V c main_v51 (((cfg3.win 1).blk t).view.emb (ix2 (j 0) k))
      = V c main_v51 (ix2 ((((cfg3.win 5).blk t).view.emb j) 0) k)
    refine congrArg (V c main_v51) (funext fun a => Fin.ext ?_)
    match a with
    | ⟨0, _⟩ =>
      show win3_1.index t (0 : Fin 2) * 5000 + 1 * (j 0).val = win3_5.index t (0 : Fin 2) * 5000 + 1 * (j 0).val
      rw [e2, e9]
    | ⟨1, _⟩ =>
      show win3_1.index t (1 : Fin 2) * 128 + 1 * k.val = k.val
      rw [e3]; omega
  · show V c main_v65 (((cfg3.win 2).blk t).view.emb (ix2 k q)) = V c main_v65 (ix2 k q)
    refine congrArg (V c main_v65) (funext fun a => Fin.ext ?_)
    match a with
    | ⟨0, _⟩ =>
      show win3_2.index t (0 : Fin 2) * 128 + 1 * k.val = k.val
      rw [e4]; omega
    | ⟨1, _⟩ =>
      show win3_2.index t (1 : Fin 2) * 128 + 1 * q.val = q.val
      rw [e5]; omega
  · show V c main_v67 (((cfg3.win 3).blk t).view.emb (ix2 k q)) = V c main_v67 (ix2 k q)
    refine congrArg (V c main_v67) (funext fun a => Fin.ext ?_)
    match a with
    | ⟨0, _⟩ =>
      show win3_3.index t (0 : Fin 2) * 128 + 1 * k.val = k.val
      rw [e6]; omega
    | ⟨1, _⟩ =>
      show win3_3.index t (1 : Fin 2) * 128 + 1 * q.val = q.val
      rw [e7]; omega
  · show V c main_v69 (((cfg3.win 4).blk t).view.emb (ix1 q)) = V c main_v69 (ix1 q)
    refine congrArg (V c main_v69) (funext fun a => Fin.ext ?_)
    match a with
    | ⟨0, _⟩ =>
      show win3_4.index t (0 : Fin 1) * 128 + 1 * q.val = q.val
      rw [e8]; omega
  · show (j 1).val = win3_5.index t (1 : Fin 2) * 128 + 1 * (j 1).val
    rw [e10]; omega

/-- An index of the result array is in point t's block iff each coordinate is in the block's range on its axis. -/
theorem mem_blk (t : Fin cfg3.N) (i : S100000x128.Idx) :
    i ∈ ((cfg3.win 5).blk t).view.set ↔ ∀ a : Fin 2, win3_5.index t a * S5000x128.size a ≤ (i a).val
      ∧ (i a).val < win3_5.index t a * S5000x128.size a + S5000x128.size a := by
  show i ∈ ((View.whole main_v70).slice (win3_5.rect t)).set ↔ _
  rw [View.set_slice_whole, Rect.mem_set_unit]
  exact Iff.rfl

/-- Row r of the result is written by point r / 5000: the 20 blocks cover the array. -/
theorem cover (i : S100000x128.Idx) :
    ∃ t : Fin cfg3.N, (cfg3.win 5).flush t = true ∧ i ∈ ((cfg3.win 5).blk t).view.set := by
  have hi0 : (i 0).val < 100000 := (i 0).isLt
  have hi1 : (i 1).val < 128 := (i 1).isLt
  have hN : grid3.N = 20 := N_3
  obtain ⟨t, ht⟩ : ∃ t : Fin cfg3.N, t.val = (i 0).val / 5000 :=
    ⟨⟨(i 0).val / 5000, by show (i 0).val / 5000 < grid3.N; rw [hN]; omega⟩, rfl⟩
  obtain ⟨e0, e1, e2, e3, e4, e5, e6, e7, e8, e9, e10⟩ := idx_facts t
  refine ⟨t, flush3_5 t, ?_⟩
  rw [mem_blk]
  intro a
  match a with
  | ⟨0, _⟩ =>
    show win3_5.index t (0 : Fin 2) * 5000 ≤ (i 0).val ∧ (i 0).val < win3_5.index t (0 : Fin 2) * 5000 + 5000
    rw [e9, ht]; omega
  | ⟨1, _⟩ =>
    show win3_5.index t (1 : Fin 2) * 128 ≤ (i 1).val ∧ (i 1).val < win3_5.index t (1 : Fin 2) * 128 + 128
    rw [e10]; omega

/-- The result array at the launch's exit: the convolution layer of the arrays as the launch found them. -/
theorem final (c : Dev nD) :
    (dat3 V c).arrAt 5 cfg3.N
      = Cert.RectLayers.combine (V c main_v63) (V c main_v51) (V c main_v65) (V c main_v67) (V c main_v69) :=
  (dat3 V c).arrAt_eq_of_cover 5 _ (fun t _ => flushed_eq V c t) cover

end Cert.KernelIdeal.Conv3

end
-- ==== Proof.ConvArray4.lean ====
/-
  Convolution layer 4's kernel, from blocks to the whole array.

  The launch runs over 20 grid points. At point t it reads rows 5000 t … 5000 t + 4999 of the neighbours' mean and of
  the nodes' own features, the two whole 128 × 128 weight matrices and the whole bias, and writes rows 5000 t … of its
  result: the rectified sum of the two products and the bias. Entry (p, q) of the layer reads only row p of the two
  row operands, so a block of rows of the layer of the whole arrays is the layer of that block of rows; the 20 blocks
  cover the 100000 rows, so the result array ends holding the layer of the whole arrays as the launch found them.
-/
import proofs.«105063_j23124103922158_1_alg».proof.Proof.Gen.KernelIdeal.Frame
import proofs.«105063_j23124103922158_1_alg».proof.Proof.SageLayer
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Conv4

open Cert.KernelIdeal Cert.KernelIdeal.Gen

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The tile's arithmetic is the convolution layer of the tile's rows. -/
theorem tile_eq (x0 x1 : FVec Ideal S5000x128 .f32) (x2 x3 : FVec Ideal S128x128 .f32) (x4 : FVec Ideal S128 .f32) :
    k4_pay1 (F := Ideal) x0 x1 x2 x3 x4 = Cert.RectLayers.combine x0 x1 x2 x3 x4 := by
  funext j
  obtain ⟨p, q, rfl⟩ : ∃ (p : Fin 5000) (q : Fin 128), j = ix2 p q := ⟨j 0, j 1, eq_ix2 j⟩
  rw [Cert.RectLayers.combine_ix2]
  unfold k4_pay1
  simp only [shapeCast_self]
  exact Cert.RectLayers.tile_combine_apply dot_S5000x128_S128x128_S5000x128_1_0_0_1_n_n rfl rfl rfl rfl rfl rfl rfl rfl none
    (truncf .bf16 x0 bitsLt_bf16_f32) (truncf .bf16 x1 bitsLt_bf16_f32) (truncf .bf16 x2 bitsLt_bf16_f32)
    (truncf .bf16 x3 bitsLt_bf16_f32) x4 shapeCasts_S128_S1x128 broadcasts_S1x128_S5000x128 p q

/-- Where each window's block sits at point t: the two row operands' and the result's at block row t, the weights'
    and the bias's at the origin. -/
theorem idx_facts : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0 ∧ win4_4.index t (0 : Fin 1) = 0
    ∧ win4_5.index t (0 : Fin 2) = t.val ∧ win4_5.index t (1 : Fin 2) = 0 :=
  (by decide +kernel : ∀ t : Fin grid4.N, _)

set_option maxHeartbeats 4000000 in
/-- What point t writes back is rows 5000 t … of the convolution layer of the arrays as the launch finds them. -/
theorem flushed_eq (c : Dev nD) (t : Fin cfg4.N) :
    (dat4 V c).flushed 5 t = ((cfg4.win 5).blk t).view.read (Elt Ideal)
      (Cert.RectLayers.combine (V c main_v82) (V c main_v70) (V c main_v84) (V c main_v86) (V c main_v88)) := by
  show (cfg4.win 5).cut (grid4.coords t) ((dat4 V c).after 5 t) = _
  rw [after4_5]
  unfold out4_5
  rw [View.canon_unit_zero hz2]
  simp only [View.ld_unit_zero (S := S5000x128) hz2, View.ld_unit_zero (S := S128x128) hz2,
    View.ld_unit_zero (S := S128) hz1]
  rw [tile_eq]
  obtain ⟨e0, e1, e2, e3, e4, e5, e6, e7, e8, e9, e10⟩ := idx_facts t
  funext j
  show Cert.RectLayers.combine (iblk4 V c 0 t) (iblk4 V c 1 t) (iblk4 V c 2 t) (iblk4 V c 3 t) (iblk4 V c 4 t) j
    = Cert.RectLayers.combine (V c main_v82) (V c main_v70) (V c main_v84) (V c main_v86) (V c main_v88)
        (((cfg4.win 5).blk t).view.emb j)
  refine Cert.RectLayers.combine_congr _ _ _ _ _ _ _ _ _ _ _ _ (fun k => ?_) (fun k => ?_) (fun k q => ?_) (fun k q => ?_)
    (fun q => ?_) ?_
  · show V c main_v82 (((cfg4.win 0).blk t).view.emb (ix2 (j 0) k))
      = V c main_v82 (ix2 ((((cfg4.win 5).blk t).view.emb j) 0) k)
    refine congrArg (V c main_v82) (funext fun a => Fin.ext ?_)
    match a with
    | ⟨0, _⟩ =>
      show win4_0.index t (0 : Fin 2) * 5000 + 1 * (j 0).val = win4_5.index t (0 : Fin 2) * 5000 + 1 * (j 0).val
      rw [e0, e9]
    | ⟨1, _⟩ =>
      show win4_0.index t (1 : Fin 2) * 128 + 1 * k.val = k.val
      rw [e1]; omega
  · show V c main_v70 (((cfg4.win 1).blk t).view.emb (ix2 (j 0) k))
      = V c main_v70 (ix2 ((((cfg4.win 5).blk t).view.emb j) 0) k)
    refine congrArg (V c main_v70) (funext fun a => Fin.ext ?_)
    match a with
    | ⟨0, _⟩ =>
      show win4_1.index t (0 : Fin 2) * 5000 + 1 * (j 0).val = win4_5.index t (0 : Fin 2) * 5000 + 1 * (j 0).val
      rw [e2, e9]
    | ⟨1, _⟩ =>
      show win4_1.index t (1 : Fin 2) * 128 + 1 * k.val = k.val
      rw [e3]; omega
  · show V c main_v84 (((cfg4.win 2).blk t).view.emb (ix2 k q)) = V c main_v84 (ix2 k q)
    refine congrArg (V c main_v84) (funext fun a => Fin.ext ?_)
    match a with
    | ⟨0, _⟩ =>
      show win4_2.index t (0 : Fin 2) * 128 + 1 * k.val = k.val
      rw [e4]; omega
    | ⟨1, _⟩ =>
      show win4_2.index t (1 : Fin 2) * 128 + 1 * q.val = q.val
      rw [e5]; omega
  · show V c main_v86 (((cfg4.win 3).blk t).view.emb (ix2 k q)) = V c main_v86 (ix2 k q)
    refine congrArg (V c main_v86) (funext fun a => Fin.ext ?_)
    match a with
    | ⟨0, _⟩ =>
      show win4_3.index t (0 : Fin 2) * 128 + 1 * k.val = k.val
      rw [e6]; omega
    | ⟨1, _⟩ =>
      show win4_3.index t (1 : Fin 2) * 128 + 1 * q.val = q.val
      rw [e7]; omega
  · show V c main_v88 (((cfg4.win 4).blk t).view.emb (ix1 q)) = V c main_v88 (ix1 q)
    refine congrArg (V c main_v88) (funext fun a => Fin.ext ?_)
    match a with
    | ⟨0, _⟩ =>
      show win4_4.index t (0 : Fin 1) * 128 + 1 * q.val = q.val
      rw [e8]; omega
  · show (j 1).val = win4_5.index t (1 : Fin 2) * 128 + 1 * (j 1).val
    rw [e10]; omega

/-- An index of the result array is in point t's block iff each coordinate is in the block's range on its axis. -/
theorem mem_blk (t : Fin cfg4.N) (i : S100000x128.Idx) :
    i ∈ ((cfg4.win 5).blk t).view.set ↔ ∀ a : Fin 2, win4_5.index t a * S5000x128.size a ≤ (i a).val
      ∧ (i a).val < win4_5.index t a * S5000x128.size a + S5000x128.size a := by
  show i ∈ ((View.whole main_v89).slice (win4_5.rect t)).set ↔ _
  rw [View.set_slice_whole, Rect.mem_set_unit]
  exact Iff.rfl

/-- Row r of the result is written by point r / 5000: the 20 blocks cover the array. -/
theorem cover (i : S100000x128.Idx) :
    ∃ t : Fin cfg4.N, (cfg4.win 5).flush t = true ∧ i ∈ ((cfg4.win 5).blk t).view.set := by
  have hi0 : (i 0).val < 100000 := (i 0).isLt
  have hi1 : (i 1).val < 128 := (i 1).isLt
  have hN : grid4.N = 20 := N_4
  obtain ⟨t, ht⟩ : ∃ t : Fin cfg4.N, t.val = (i 0).val / 5000 :=
    ⟨⟨(i 0).val / 5000, by show (i 0).val / 5000 < grid4.N; rw [hN]; omega⟩, rfl⟩
  obtain ⟨e0, e1, e2, e3, e4, e5, e6, e7, e8, e9, e10⟩ := idx_facts t
  refine ⟨t, flush4_5 t, ?_⟩
  rw [mem_blk]
  intro a
  match a with
  | ⟨0, _⟩ =>
    show win4_5.index t (0 : Fin 2) * 5000 ≤ (i 0).val ∧ (i 0).val < win4_5.index t (0 : Fin 2) * 5000 + 5000
    rw [e9, ht]; omega
  | ⟨1, _⟩ =>
    show win4_5.index t (1 : Fin 2) * 128 ≤ (i 1).val ∧ (i 1).val < win4_5.index t (1 : Fin 2) * 128 + 128
    rw [e10]; omega

/-- The result array at the launch's exit: the convolution layer of the arrays as the launch found them. -/
theorem final (c : Dev nD) :
    (dat4 V c).arrAt 5 cfg4.N
      = Cert.RectLayers.combine (V c main_v82) (V c main_v70) (V c main_v84) (V c main_v86) (V c main_v88) :=
  (dat4 V c).arrAt_eq_of_cover 5 _ (fun t _ => flushed_eq V c t) cover

end Cert.KernelIdeal.Conv4

end
-- ==== Proof.KernelChain.lean ====
/-
  The kernel program's result, followed through its five launches and the host operations between them.

  The program is: host operations that cut the edge list into the edges' sources and targets and compute the inverse
  degrees; the input layer's launch; then four times — host operations that gather, add at the targets and scale (the
  neighbours' mean of the previous launch's result) and slice the layer's weights and bias out of the stacked
  arguments, followed by the convolution layer's launch. No host operation and no launch writes a buffer an earlier
  segment produced, other than its own results, so the edges' ends, the inverse degrees and the arguments are at every
  later boundary what they were when computed; each launch's result array is its layer of the arrays it found. The last
  launch's result is therefore the network of the arguments.
-/
import proofs.«105063_j23124103922158_1_alg».proof.Proof.Gen.KernelIdeal.Frame
import proofs.«105063_j23124103922158_1_alg».proof.Proof.SageLayer
import proofs.«105063_j23124103922158_1_alg».proof.Proof.KernelHost
import proofs.«105063_j23124103922158_1_alg».proof.Proof.EmbedArray
import proofs.«105063_j23124103922158_1_alg».proof.Proof.ConvArray1
import proofs.«105063_j23124103922158_1_alg».proof.Proof.ConvArray2
import proofs.«105063_j23124103922158_1_alg».proof.Proof.ConvArray3
import proofs.«105063_j23124103922158_1_alg».proof.Proof.ConvArray4
import Idealize.ShloMosaic.Lib.StableHlo.Run

set_option maxRecDepth 16384

noncomputable section

namespace Cert.KernelIdeal.Chain

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.StableHlo
open Idealize.ShloMosaic.Pipeline (Dat Cfg Window BodyObligation cellOf)
open Cert.KernelIdeal Cert.KernelIdeal.Gen Cert.KernelIdeal.Net

local notation "𝕄" => MT nD τ sig Unit (Elt Ideal) ℕ (UR sig nD τ) ℕ

variable (m : (ℓ : Loc nD τ sig) → Buf (Elt Ideal) ℓ) (ρ : Dev nD → PrngReg)

/-! ## After the first host operations -/

theorem src_at1 (c : Dev nD) : W1 m ρ c (Proc.devRef .tc main_v1) = srcOf (m ((c : Thread nD τ).loc main_arg1)) := by
  show StableHlo.after hostOps0 (W0 m ρ c) (Proc.devRef .tc main_v1) = _
  dsimp only [hostOps0]
  after_results
  rfl

theorem dst_at1 (c : Dev nD) : W1 m ρ c (Proc.devRef .tc main_v3) = dstOf (m ((c : Thread nD τ).loc main_arg1)) := by
  show StableHlo.after hostOps0 (W0 m ρ c) (Proc.devRef .tc main_v3) = _
  dsimp only [hostOps0]
  after_results
  rfl

theorem inv_at1 (c : Dev nD) : W1 m ρ c (Proc.devRef .tc main_v12) = invOf (dstOf (m ((c : Thread nD τ).loc main_arg1))) := by
  show StableHlo.after hostOps0 (W0 m ρ c) (Proc.devRef .tc main_v12) = _
  dsimp only [hostOps0]
  after_results
  rfl

theorem arg0_at1 (c : Dev nD) : W1 m ρ c (Proc.devRef .tc main_arg0) = m ((c : Thread nD τ).loc main_arg0) := by
  show StableHlo.after hostOps0 (W0 m ρ c) (Proc.devRef .tc main_arg0) = _
  dsimp only [hostOps0]
  after_results
  try rfl

theorem arg2_at1 (c : Dev nD) : W1 m ρ c (Proc.devRef .tc main_arg2) = m ((c : Thread nD τ).loc main_arg2) := by
  show StableHlo.after hostOps0 (W0 m ρ c) (Proc.devRef .tc main_arg2) = _
  dsimp only [hostOps0]
  after_results
  try rfl

theorem arg3_at1 (c : Dev nD) : W1 m ρ c (Proc.devRef .tc main_arg3) = m ((c : Thread nD τ).loc main_arg3) := by
  show StableHlo.after hostOps0 (W0 m ρ c) (Proc.devRef .tc main_arg3) = _
  dsimp only [hostOps0]
  after_results
  try rfl

theorem arg4_at1 (c : Dev nD) : W1 m ρ c (Proc.devRef .tc main_arg4) = m ((c : Thread nD τ).loc main_arg4) := by
  show StableHlo.after hostOps0 (W0 m ρ c) (Proc.devRef .tc main_arg4) = _
  dsimp only [hostOps0]
  after_results
  try rfl

theorem arg5_at1 (c : Dev nD) : W1 m ρ c (Proc.devRef .tc main_arg5) = m ((c : Thread nD τ).loc main_arg5) := by
  show StableHlo.after hostOps0 (W0 m ρ c) (Proc.devRef .tc main_arg5) = _
  dsimp only [hostOps0]
  after_results
  try rfl

theorem arg6_at1 (c : Dev nD) : W1 m ρ c (Proc.devRef .tc main_arg6) = m ((c : Thread nD τ).loc main_arg6) := by
  show StableHlo.after hostOps0 (W0 m ρ c) (Proc.devRef .tc main_arg6) = _
  dsimp only [hostOps0]
  after_results
  try rfl

/-! ## What later segments leave alone -/

theorem keep2_v1 (c : Dev nD) : W2 m ρ c (Proc.devRef .tc main_v1) = W1 m ρ c (Proc.devRef .tc main_v1) :=
  W2_of_ne m ρ c main_v1 (by decide)
theorem keep2_v3 (c : Dev nD) : W2 m ρ c (Proc.devRef .tc main_v3) = W1 m ρ c (Proc.devRef .tc main_v3) :=
  W2_of_ne m ρ c main_v3 (by decide)
theorem keep2_v12 (c : Dev nD) : W2 m ρ c (Proc.devRef .tc main_v12) = W1 m ρ c (Proc.devRef .tc main_v12) :=
  W2_of_ne m ρ c main_v12 (by decide)
theorem keep2_arg4 (c : Dev nD) : W2 m ρ c (Proc.devRef .tc main_arg4) = W1 m ρ c (Proc.devRef .tc main_arg4) :=
  W2_of_ne m ρ c main_arg4 (by decide)
theorem keep2_arg5 (c : Dev nD) : W2 m ρ c (Proc.devRef .tc main_arg5) = W1 m ρ c (Proc.devRef .tc main_arg5) :=
  W2_of_ne m ρ c main_arg5 (by decide)
theorem keep2_arg6 (c : Dev nD) : W2 m ρ c (Proc.devRef .tc main_arg6) = W1 m ρ c (Proc.devRef .tc main_arg6) :=
  W2_of_ne m ρ c main_arg6 (by decide)

theorem keep4_v1 (c : Dev nD) : W4 m ρ c (Proc.devRef .tc main_v1) = W2 m ρ c (Proc.devRef .tc main_v1) :=
  (W4_of_ne m ρ c main_v1 (by decide)).trans (by
    show StableHlo.after hostOps1 (W2 m ρ c) (Proc.devRef .tc main_v1) = _
    dsimp only [hostOps1]
    after_results
    try rfl)
theorem keep4_v3 (c : Dev nD) : W4 m ρ c (Proc.devRef .tc main_v3) = W2 m ρ c (Proc.devRef .tc main_v3) :=
  (W4_of_ne m ρ c main_v3 (by decide)).trans (by
    show StableHlo.after hostOps1 (W2 m ρ c) (Proc.devRef .tc main_v3) = _
    dsimp only [hostOps1]
    after_results
    try rfl)
theorem keep4_v12 (c : Dev nD) : W4 m ρ c (Proc.devRef .tc main_v12) = W2 m ρ c (Proc.devRef .tc main_v12) :=
  (W4_of_ne m ρ c main_v12 (by decide)).trans (by
    show StableHlo.after hostOps1 (W2 m ρ c) (Proc.devRef .tc main_v12) = _
    dsimp only [hostOps1]
    after_results
    try rfl)
theorem keep4_arg4 (c : Dev nD) : W4 m ρ c (Proc.devRef .tc main_arg4) = W2 m ρ c (Proc.devRef .tc main_arg4) :=
  (W4_of_ne m ρ c main_arg4 (by decide)).trans (by
    show StableHlo.after hostOps1 (W2 m ρ c) (Proc.devRef .tc main_arg4) = _
    dsimp only [hostOps1]
    after_results
    try rfl)
theorem keep4_arg5 (c : Dev nD) : W4 m ρ c (Proc.devRef .tc main_arg5) = W2 m ρ c (Proc.devRef .tc main_arg5) :=
  (W4_of_ne m ρ c main_arg5 (by decide)).trans (by
    show StableHlo.after hostOps1 (W2 m ρ c) (Proc.devRef .tc main_arg5) = _
    dsimp only [hostOps1]
    after_results
    try rfl)
theorem keep4_arg6 (c : Dev nD) : W4 m ρ c (Proc.devRef .tc main_arg6) = W2 m ρ c (Proc.devRef .tc main_arg6) :=
  (W4_of_ne m ρ c main_arg6 (by decide)).trans (by
    show StableHlo.after hostOps1 (W2 m ρ c) (Proc.devRef .tc main_arg6) = _
    dsimp only [hostOps1]
    after_results
    try rfl)

theorem keep6_v1 (c : Dev nD) : W6 m ρ c (Proc.devRef .tc main_v1) = W4 m ρ c (Proc.devRef .tc main_v1) :=
  (W6_of_ne m ρ c main_v1 (by decide)).trans (by
    show StableHlo.after hostOps2 (W4 m ρ c) (Proc.devRef .tc main_v1) = _
    dsimp only [hostOps2]
    after_results
    try rfl)
theorem keep6_v3 (c : Dev nD) : W6 m ρ c (Proc.devRef .tc main_v3) = W4 m ρ c (Proc.devRef .tc main_v3) :=
  (W6_of_ne m ρ c main_v3 (by decide)).trans (by
    show StableHlo.after hostOps2 (W4 m ρ c) (Proc.devRef .tc main_v3) = _
    dsimp only [hostOps2]
    after_results
    try rfl)
theorem keep6_v12 (c : Dev nD) : W6 m ρ c (Proc.devRef .tc main_v12) = W4 m ρ c (Proc.devRef .tc main_v12) :=
  (W6_of_ne m ρ c main_v12 (by decide)).trans (by
    show StableHlo.after hostOps2 (W4 m ρ c) (Proc.devRef .tc main_v12) = _
    dsimp only [hostOps2]
    after_results
    try rfl)
theorem keep6_arg4 (c : Dev nD) : W6 m ρ c (Proc.devRef .tc main_arg4) = W4 m ρ c (Proc.devRef .tc main_arg4) :=
  (W6_of_ne m ρ c main_arg4 (by decide)).trans (by
    show StableHlo.after hostOps2 (W4 m ρ c) (Proc.devRef .tc main_arg4) = _
    dsimp only [hostOps2]
    after_results
    try rfl)
theorem keep6_arg5 (c : Dev nD) : W6 m ρ c (Proc.devRef .tc main_arg5) = W4 m ρ c (Proc.devRef .tc main_arg5) :=
  (W6_of_ne m ρ c main_arg5 (by decide)).trans (by
    show StableHlo.after hostOps2 (W4 m ρ c) (Proc.devRef .tc main_arg5) = _
    dsimp only [hostOps2]
    after_results
    try rfl)
theorem keep6_arg6 (c : Dev nD) : W6 m ρ c (Proc.devRef .tc main_arg6) = W4 m ρ c (Proc.devRef .tc main_arg6) :=
  (W6_of_ne m ρ c main_arg6 (by decide)).trans (by
    show StableHlo.after hostOps2 (W4 m ρ c) (Proc.devRef .tc main_arg6) = _
    dsimp only [hostOps2]
    after_results
    try rfl)

theorem keep8_v1 (c : Dev nD) : W8 m ρ c (Proc.devRef .tc main_v1) = W6 m ρ c (Proc.devRef .tc main_v1) :=
  (W8_of_ne m ρ c main_v1 (by decide)).trans (by
    show StableHlo.after hostOps3 (W6 m ρ c) (Proc.devRef .tc main_v1) = _
    dsimp only [hostOps3]
    after_results
    try rfl)
theorem keep8_v3 (c : Dev nD) : W8 m ρ c (Proc.devRef .tc main_v3) = W6 m ρ c (Proc.devRef .tc main_v3) :=
  (W8_of_ne m ρ c main_v3 (by decide)).trans (by
    show StableHlo.after hostOps3 (W6 m ρ c) (Proc.devRef .tc main_v3) = _
    dsimp only [hostOps3]
    after_results
    try rfl)
theorem keep8_v12 (c : Dev nD) : W8 m ρ c (Proc.devRef .tc main_v12) = W6 m ρ c (Proc.devRef .tc main_v12) :=
  (W8_of_ne m ρ c main_v12 (by decide)).trans (by
    show StableHlo.after hostOps3 (W6 m ρ c) (Proc.devRef .tc main_v12) = _
    dsimp only [hostOps3]
    after_results
    try rfl)
theorem keep8_arg4 (c : Dev nD) : W8 m ρ c (Proc.devRef .tc main_arg4) = W6 m ρ c (Proc.devRef .tc main_arg4) :=
  (W8_of_ne m ρ c main_arg4 (by decide)).trans (by
    show StableHlo.after hostOps3 (W6 m ρ c) (Proc.devRef .tc main_arg4) = _
    dsimp only [hostOps3]
    after_results
    try rfl)
theorem keep8_arg5 (c : Dev nD) : W8 m ρ c (Proc.devRef .tc main_arg5) = W6 m ρ c (Proc.devRef .tc main_arg5) :=
  (W8_of_ne m ρ c main_arg5 (by decide)).trans (by
    show StableHlo.after hostOps3 (W6 m ρ c) (Proc.devRef .tc main_arg5) = _
    dsimp only [hostOps3]
    after_results
    try rfl)
theorem keep8_arg6 (c : Dev nD) : W8 m ρ c (Proc.devRef .tc main_arg6) = W6 m ρ c (Proc.devRef .tc main_arg6) :=
  (W8_of_ne m ρ c main_arg6 (by decide)).trans (by
    show StableHlo.after hostOps3 (W6 m ρ c) (Proc.devRef .tc main_arg6) = _
    dsimp only [hostOps3]
    after_results
    try rfl)

/-! ## The carried buffers at each launch's entry side -/

theorem v1_at2 (c : Dev nD) : W2 m ρ c (Proc.devRef .tc main_v1) = srcOf (m ((c : Thread nD τ).loc main_arg1)) :=
  (keep2_v1 m ρ c).trans (src_at1 m ρ c)
theorem v1_at4 (c : Dev nD) : W4 m ρ c (Proc.devRef .tc main_v1) = srcOf (m ((c : Thread nD τ).loc main_arg1)) :=
  (keep4_v1 m ρ c).trans (v1_at2 m ρ c)
theorem v1_at6 (c : Dev nD) : W6 m ρ c (Proc.devRef .tc main_v1) = srcOf (m ((c : Thread nD τ).loc main_arg1)) :=
  (keep6_v1 m ρ c).trans (v1_at4 m ρ c)
theorem v1_at8 (c : Dev nD) : W8 m ρ c (Proc.devRef .tc main_v1) = srcOf (m ((c : Thread nD τ).loc main_arg1)) :=
  (keep8_v1 m ρ c).trans (v1_at6 m ρ c)
theorem v3_at2 (c : Dev nD) : W2 m ρ c (Proc.devRef .tc main_v3) = dstOf (m ((c : Thread nD τ).loc main_arg1)) :=
  (keep2_v3 m ρ c).trans (dst_at1 m ρ c)
theorem v3_at4 (c : Dev nD) : W4 m ρ c (Proc.devRef .tc main_v3) = dstOf (m ((c : Thread nD τ).loc main_arg1)) :=
  (keep4_v3 m ρ c).trans (v3_at2 m ρ c)
theorem v3_at6 (c : Dev nD) : W6 m ρ c (Proc.devRef .tc main_v3) = dstOf (m ((c : Thread nD τ).loc main_arg1)) :=
  (keep6_v3 m ρ c).trans (v3_at4 m ρ c)
theorem v3_at8 (c : Dev nD) : W8 m ρ c (Proc.devRef .tc main_v3) = dstOf (m ((c : Thread nD τ).loc main_arg1)) :=
  (keep8_v3 m ρ c).trans (v3_at6 m ρ c)
theorem v12_at2 (c : Dev nD) : W2 m ρ c (Proc.devRef .tc main_v12) = invOf (dstOf (m ((c : Thread nD τ).loc main_arg1))) :=
  (keep2_v12 m ρ c).trans (inv_at1 m ρ c)
theorem v12_at4 (c : Dev nD) : W4 m ρ c (Proc.devRef .tc main_v12) = invOf (dstOf (m ((c : Thread nD τ).loc main_arg1))) :=
  (keep4_v12 m ρ c).trans (v12_at2 m ρ c)
theorem v12_at6 (c : Dev nD) : W6 m ρ c (Proc.devRef .tc main_v12) = invOf (dstOf (m ((c : Thread nD τ).loc main_arg1))) :=
  (keep6_v12 m ρ c).trans (v12_at4 m ρ c)
theorem v12_at8 (c : Dev nD) : W8 m ρ c (Proc.devRef .tc main_v12) = invOf (dstOf (m ((c : Thread nD τ).loc main_arg1))) :=
  (keep8_v12 m ρ c).trans (v12_at6 m ρ c)
theorem arg4_at2 (c : Dev nD) : W2 m ρ c (Proc.devRef .tc main_arg4) = m ((c : Thread nD τ).loc main_arg4) :=
  (keep2_arg4 m ρ c).trans (arg4_at1 m ρ c)
theorem arg4_at4 (c : Dev nD) : W4 m ρ c (Proc.devRef .tc main_arg4) = m ((c : Thread nD τ).loc main_arg4) :=
  (keep4_arg4 m ρ c).trans (arg4_at2 m ρ c)
theorem arg4_at6 (c : Dev nD) : W6 m ρ c (Proc.devRef .tc main_arg4) = m ((c : Thread nD τ).loc main_arg4) :=
  (keep6_arg4 m ρ c).trans (arg4_at4 m ρ c)
theorem arg4_at8 (c : Dev nD) : W8 m ρ c (Proc.devRef .tc main_arg4) = m ((c : Thread nD τ).loc main_arg4) :=
  (keep8_arg4 m ρ c).trans (arg4_at6 m ρ c)
theorem arg5_at2 (c : Dev nD) : W2 m ρ c (Proc.devRef .tc main_arg5) = m ((c : Thread nD τ).loc main_arg5) :=
  (keep2_arg5 m ρ c).trans (arg5_at1 m ρ c)
theorem arg5_at4 (c : Dev nD) : W4 m ρ c (Proc.devRef .tc main_arg5) = m ((c : Thread nD τ).loc main_arg5) :=
  (keep4_arg5 m ρ c).trans (arg5_at2 m ρ c)
theorem arg5_at6 (c : Dev nD) : W6 m ρ c (Proc.devRef .tc main_arg5) = m ((c : Thread nD τ).loc main_arg5) :=
  (keep6_arg5 m ρ c).trans (arg5_at4 m ρ c)
theorem arg5_at8 (c : Dev nD) : W8 m ρ c (Proc.devRef .tc main_arg5) = m ((c : Thread nD τ).loc main_arg5) :=
  (keep8_arg5 m ρ c).trans (arg5_at6 m ρ c)
theorem arg6_at2 (c : Dev nD) : W2 m ρ c (Proc.devRef .tc main_arg6) = m ((c : Thread nD τ).loc main_arg6) :=
  (keep2_arg6 m ρ c).trans (arg6_at1 m ρ c)
theorem arg6_at4 (c : Dev nD) : W4 m ρ c (Proc.devRef .tc main_arg6) = m ((c : Thread nD τ).loc main_arg6) :=
  (keep4_arg6 m ρ c).trans (arg6_at2 m ρ c)
theorem arg6_at6 (c : Dev nD) : W6 m ρ c (Proc.devRef .tc main_arg6) = m ((c : Thread nD τ).loc main_arg6) :=
  (keep6_arg6 m ρ c).trans (arg6_at4 m ρ c)
theorem arg6_at8 (c : Dev nD) : W8 m ρ c (Proc.devRef .tc main_arg6) = m ((c : Thread nD τ).loc main_arg6) :=
  (keep8_arg6 m ρ c).trans (arg6_at6 m ρ c)

/-! ## The features after each launch -/

/-- The input layer's features. -/
def feat0 (c : Dev nD) : Cert.Sage.Feat :=
  Cert.RectLayers.dense (m ((c : Thread nD τ).loc main_arg0)) (m ((c : Thread nD τ).loc main_arg2)) (m ((c : Thread nD τ).loc main_arg3))
/-- The features after convolution layer 1. -/
def feat1 (c : Dev nD) : Cert.Sage.Feat :=
  Cert.Sage.conv (Net.mean (m ((c : Thread nD τ).loc main_arg1))) (wAt0 (m ((c : Thread nD τ).loc main_arg4))) (wAt0 (m ((c : Thread nD τ).loc main_arg6)))
    (bAt0 (m ((c : Thread nD τ).loc main_arg5))) (feat0 m c)
/-- The features after convolution layer 2. -/
def feat2 (c : Dev nD) : Cert.Sage.Feat :=
  Cert.Sage.conv (Net.mean (m ((c : Thread nD τ).loc main_arg1))) (wAt1 (m ((c : Thread nD τ).loc main_arg4))) (wAt1 (m ((c : Thread nD τ).loc main_arg6)))
    (bAt1 (m ((c : Thread nD τ).loc main_arg5))) (feat1 m c)
/-- The features after convolution layer 3. -/
def feat3 (c : Dev nD) : Cert.Sage.Feat :=
  Cert.Sage.conv (Net.mean (m ((c : Thread nD τ).loc main_arg1))) (wAt2 (m ((c : Thread nD τ).loc main_arg4))) (wAt2 (m ((c : Thread nD τ).loc main_arg6)))
    (bAt2 (m ((c : Thread nD τ).loc main_arg5))) (feat2 m c)
/-- The features after convolution layer 4. -/
def feat4 (c : Dev nD) : Cert.Sage.Feat :=
  Cert.Sage.conv (Net.mean (m ((c : Thread nD τ).loc main_arg1))) (wAt3 (m ((c : Thread nD τ).loc main_arg4))) (wAt3 (m ((c : Thread nD τ).loc main_arg6)))
    (bAt3 (m ((c : Thread nD τ).loc main_arg5))) (feat3 m c)

/-- The first launch leaves the input layer's features in its result array. -/
theorem out0 (c : Dev nD) : W2 m ρ c (Proc.devRef .tc main_v13) = feat0 m c :=
  (W2_arr m ρ c 3).trans ((Cert.KernelIdeal.Embed.final (V1 m ρ) c).trans (by
    show Cert.RectLayers.dense (W1 m ρ c (Proc.devRef .tc main_arg0)) (W1 m ρ c (Proc.devRef .tc main_arg2))
      (W1 m ρ c (Proc.devRef .tc main_arg3)) = _
    rw [arg0_at1, arg2_at1, arg3_at1]
    rfl))

/-! ### Convolution layer 1 -/

set_option maxHeartbeats 8000000 in
theorem agg1 (c : Dev nD) : W3 m ρ c (Proc.devRef .tc main_v25)
    = meanOf (W2 m ρ c (Proc.devRef .tc main_v1)) (W2 m ρ c (Proc.devRef .tc main_v3))
        (W2 m ρ c (Proc.devRef .tc main_v12)) (W2 m ρ c (Proc.devRef .tc main_v13)) := by
  show StableHlo.after hostOps1 (W2 m ρ c) (Proc.devRef .tc main_v25) = _
  dsimp only [hostOps1]
  after_results
  rfl

theorem prev1 (c : Dev nD) : W3 m ρ c (Proc.devRef .tc main_v13) = W2 m ρ c (Proc.devRef .tc main_v13) := by
  show StableHlo.after hostOps1 (W2 m ρ c) (Proc.devRef .tc main_v13) = _
  dsimp only [hostOps1]
  after_results
  try rfl

theorem left1 (c : Dev nD) : W3 m ρ c (Proc.devRef .tc main_v27) = wAt0 (W2 m ρ c (Proc.devRef .tc main_arg4)) := by
  show StableHlo.after hostOps1 (W2 m ρ c) (Proc.devRef .tc main_v27) = _
  dsimp only [hostOps1]
  after_results
  rfl

theorem right1 (c : Dev nD) : W3 m ρ c (Proc.devRef .tc main_v29) = wAt0 (W2 m ρ c (Proc.devRef .tc main_arg6)) := by
  show StableHlo.after hostOps1 (W2 m ρ c) (Proc.devRef .tc main_v29) = _
  dsimp only [hostOps1]
  after_results
  rfl

theorem bias1 (c : Dev nD) : W3 m ρ c (Proc.devRef .tc main_v31) = bAt0 (W2 m ρ c (Proc.devRef .tc main_arg5)) := by
  show StableHlo.after hostOps1 (W2 m ρ c) (Proc.devRef .tc main_v31) = _
  dsimp only [hostOps1]
  after_results
  rfl

/-- Launch 1 leaves convolution layer 1's features in its result array. -/
theorem out1 (c : Dev nD) : W4 m ρ c (Proc.devRef .tc main_v32) = feat1 m c :=
  (W4_arr m ρ c 5).trans ((Cert.KernelIdeal.Conv1.final (V3 m ρ) c).trans (by
    show Cert.RectLayers.combine (W3 m ρ c (Proc.devRef .tc main_v25)) (W3 m ρ c (Proc.devRef .tc main_v13))
      (W3 m ρ c (Proc.devRef .tc main_v27)) (W3 m ρ c (Proc.devRef .tc main_v29)) (W3 m ρ c (Proc.devRef .tc main_v31)) = _
    rw [agg1, prev1, left1, right1, bias1, v1_at2, v3_at2, v12_at2, arg4_at2, arg5_at2,
      arg6_at2, out0]
    rfl))

/-! ### Convolution layer 2 -/

set_option maxHeartbeats 8000000 in
theorem agg2 (c : Dev nD) : W5 m ρ c (Proc.devRef .tc main_v44)
    = meanOf (W4 m ρ c (Proc.devRef .tc main_v1)) (W4 m ρ c (Proc.devRef .tc main_v3))
        (W4 m ρ c (Proc.devRef .tc main_v12)) (W4 m ρ c (Proc.devRef .tc main_v32)) := by
  show StableHlo.after hostOps2 (W4 m ρ c) (Proc.devRef .tc main_v44) = _
  dsimp only [hostOps2]
  after_results
  rfl

theorem prev2 (c : Dev nD) : W5 m ρ c (Proc.devRef .tc main_v32) = W4 m ρ c (Proc.devRef .tc main_v32) := by
  show StableHlo.after hostOps2 (W4 m ρ c) (Proc.devRef .tc main_v32) = _
  dsimp only [hostOps2]
  after_results
  try rfl

theorem left2 (c : Dev nD) : W5 m ρ c (Proc.devRef .tc main_v46) = wAt1 (W4 m ρ c (Proc.devRef .tc main_arg4)) := by
  show StableHlo.after hostOps2 (W4 m ρ c) (Proc.devRef .tc main_v46) = _
  dsimp only [hostOps2]
  after_results
  rfl

theorem right2 (c : Dev nD) : W5 m ρ c (Proc.devRef .tc main_v48) = wAt1 (W4 m ρ c (Proc.devRef .tc main_arg6)) := by
  show StableHlo.after hostOps2 (W4 m ρ c) (Proc.devRef .tc main_v48) = _
  dsimp only [hostOps2]
  after_results
  rfl

theorem bias2 (c : Dev nD) : W5 m ρ c (Proc.devRef .tc main_v50) = bAt1 (W4 m ρ c (Proc.devRef .tc main_arg5)) := by
  show StableHlo.after hostOps2 (W4 m ρ c) (Proc.devRef .tc main_v50) = _
  dsimp only [hostOps2]
  after_results
  rfl

/-- Launch 2 leaves convolution layer 2's features in its result array. -/
theorem out2 (c : Dev nD) : W6 m ρ c (Proc.devRef .tc main_v51) = feat2 m c :=
  (W6_arr m ρ c 5).trans ((Cert.KernelIdeal.Conv2.final (V5 m ρ) c).trans (by
    show Cert.RectLayers.combine (W5 m ρ c (Proc.devRef .tc main_v44)) (W5 m ρ c (Proc.devRef .tc main_v32))
      (W5 m ρ c (Proc.devRef .tc main_v46)) (W5 m ρ c (Proc.devRef .tc main_v48)) (W5 m ρ c (Proc.devRef .tc main_v50)) = _
    rw [agg2, prev2, left2, right2, bias2, v1_at4, v3_at4, v12_at4, arg4_at4, arg5_at4,
      arg6_at4, out1]
    rfl))

/-! ### Convolution layer 3 -/

set_option maxHeartbeats 8000000 in
theorem agg3 (c : Dev nD) : W7 m ρ c (Proc.devRef .tc main_v63)
    = meanOf (W6 m ρ c (Proc.devRef .tc main_v1)) (W6 m ρ c (Proc.devRef .tc main_v3))
        (W6 m ρ c (Proc.devRef .tc main_v12)) (W6 m ρ c (Proc.devRef .tc main_v51)) := by
  show StableHlo.after hostOps3 (W6 m ρ c) (Proc.devRef .tc main_v63) = _
  dsimp only [hostOps3]
  after_results
  rfl

theorem prev3 (c : Dev nD) : W7 m ρ c (Proc.devRef .tc main_v51) = W6 m ρ c (Proc.devRef .tc main_v51) := by
  show StableHlo.after hostOps3 (W6 m ρ c) (Proc.devRef .tc main_v51) = _
  dsimp only [hostOps3]
  after_results
  try rfl

theorem left3 (c : Dev nD) : W7 m ρ c (Proc.devRef .tc main_v65) = wAt2 (W6 m ρ c (Proc.devRef .tc main_arg4)) := by
  show StableHlo.after hostOps3 (W6 m ρ c) (Proc.devRef .tc main_v65) = _
  dsimp only [hostOps3]
  after_results
  rfl

theorem right3 (c : Dev nD) : W7 m ρ c (Proc.devRef .tc main_v67) = wAt2 (W6 m ρ c (Proc.devRef .tc main_arg6)) := by
  show StableHlo.after hostOps3 (W6 m ρ c) (Proc.devRef .tc main_v67) = _
  dsimp only [hostOps3]
  after_results
  rfl

theorem bias3 (c : Dev nD) : W7 m ρ c (Proc.devRef .tc main_v69) = bAt2 (W6 m ρ c (Proc.devRef .tc main_arg5)) := by
  show StableHlo.after hostOps3 (W6 m ρ c) (Proc.devRef .tc main_v69) = _
  dsimp only [hostOps3]
  after_results
  rfl

/-- Launch 3 leaves convolution layer 3's features in its result array. -/
theorem out3 (c : Dev nD) : W8 m ρ c (Proc.devRef .tc main_v70) = feat3 m c :=
  (W8_arr m ρ c 5).trans ((Cert.KernelIdeal.Conv3.final (V7 m ρ) c).trans (by
    show Cert.RectLayers.combine (W7 m ρ c (Proc.devRef .tc main_v63)) (W7 m ρ c (Proc.devRef .tc main_v51))
      (W7 m ρ c (Proc.devRef .tc main_v65)) (W7 m ρ c (Proc.devRef .tc main_v67)) (W7 m ρ c (Proc.devRef .tc main_v69)) = _
    rw [agg3, prev3, left3, right3, bias3, v1_at6, v3_at6, v12_at6, arg4_at6, arg5_at6,
      arg6_at6, out2]
    rfl))

/-! ### Convolution layer 4 -/

set_option maxHeartbeats 8000000 in
theorem agg4 (c : Dev nD) : W9 m ρ c (Proc.devRef .tc main_v82)
    = meanOf (W8 m ρ c (Proc.devRef .tc main_v1)) (W8 m ρ c (Proc.devRef .tc main_v3))
        (W8 m ρ c (Proc.devRef .tc main_v12)) (W8 m ρ c (Proc.devRef .tc main_v70)) := by
  show StableHlo.after hostOps4 (W8 m ρ c) (Proc.devRef .tc main_v82) = _
  dsimp only [hostOps4]
  after_results
  rfl

theorem prev4 (c : Dev nD) : W9 m ρ c (Proc.devRef .tc main_v70) = W8 m ρ c (Proc.devRef .tc main_v70) := by
  show StableHlo.after hostOps4 (W8 m ρ c) (Proc.devRef .tc main_v70) = _
  dsimp only [hostOps4]
  after_results
  try rfl

theorem left4 (c : Dev nD) : W9 m ρ c (Proc.devRef .tc main_v84) = wAt3 (W8 m ρ c (Proc.devRef .tc main_arg4)) := by
  show StableHlo.after hostOps4 (W8 m ρ c) (Proc.devRef .tc main_v84) = _
  dsimp only [hostOps4]
  after_results
  rfl

theorem right4 (c : Dev nD) : W9 m ρ c (Proc.devRef .tc main_v86) = wAt3 (W8 m ρ c (Proc.devRef .tc main_arg6)) := by
  show StableHlo.after hostOps4 (W8 m ρ c) (Proc.devRef .tc main_v86) = _
  dsimp only [hostOps4]
  after_results
  rfl

theorem bias4 (c : Dev nD) : W9 m ρ c (Proc.devRef .tc main_v88) = bAt3 (W8 m ρ c (Proc.devRef .tc main_arg5)) := by
  show StableHlo.after hostOps4 (W8 m ρ c) (Proc.devRef .tc main_v88) = _
  dsimp only [hostOps4]
  after_results
  rfl

/-- Launch 4 leaves convolution layer 4's features in its result array. -/
theorem out4 (c : Dev nD) : W10 m ρ c (Proc.devRef .tc main_v89) = feat4 m c :=
  (W10_arr m ρ c 5).trans ((Cert.KernelIdeal.Conv4.final (V9 m ρ) c).trans (by
    show Cert.RectLayers.combine (W9 m ρ c (Proc.devRef .tc main_v82)) (W9 m ρ c (Proc.devRef .tc main_v70))
      (W9 m ρ c (Proc.devRef .tc main_v84)) (W9 m ρ c (Proc.devRef .tc main_v86)) (W9 m ρ c (Proc.devRef .tc main_v88)) = _
    rw [agg4, prev4, left4, right4, bias4, v1_at8, v3_at8, v12_at8, arg4_at8, arg5_at8,
      arg6_at8, out3]
    rfl))

/-- The kernel program's result: the network of the arguments. -/
abbrev result (c : Dev nD) : Cert.Sage.Feat :=
  Cert.Sage.net (Net.mean (m ((c : Thread nD τ).loc main_arg1))) (Cert.RectLayers.dense (m ((c : Thread nD τ).loc main_arg0)) (m ((c : Thread nD τ).loc main_arg2)) (m ((c : Thread nD τ).loc main_arg3)))
    (wAt0 (m ((c : Thread nD τ).loc main_arg4))) (wAt0 (m ((c : Thread nD τ).loc main_arg6))) (bAt0 (m ((c : Thread nD τ).loc main_arg5)))
    (wAt1 (m ((c : Thread nD τ).loc main_arg4))) (wAt1 (m ((c : Thread nD τ).loc main_arg6))) (bAt1 (m ((c : Thread nD τ).loc main_arg5)))
    (wAt2 (m ((c : Thread nD τ).loc main_arg4))) (wAt2 (m ((c : Thread nD τ).loc main_arg6))) (bAt2 (m ((c : Thread nD τ).loc main_arg5)))
    (wAt3 (m ((c : Thread nD τ).loc main_arg4))) (wAt3 (m ((c : Thread nD τ).loc main_arg6))) (bAt3 (m ((c : Thread nD τ).loc main_arg5)))

theorem feat4_eq (c : Dev nD) : feat4 m c = result m c := rfl

/-! ## The run -/

-- the launch theorem's implicit arguments are found by unifying its conclusion with this statement, which takes
-- unfolding plain definitions in a metavariable's type
set_option backward.isDefEq.respectTransparency.types false in
/-- Every weakly fair execution of the kernel program terminates, nothing faulting, with the result array at the
    network of the arguments and the arguments as launched: the launch over the program's ten segments, the last thread
    state read against the final state, the result's buffer by the last launch's array and each argument's by the walk
    back to the launch memory. -/
theorem run : θ_run defs (onTc (τ := τ) (main (F := Ideal))) ⟨m, fun _ => 0, ρ⟩ (fun r => ∀ c : Dev nD,
      r.2.mem ((c.tc : Thread nD τ).loc main_v89) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨(h c _ (mem_uc main_v89 (by decide))).trans ((out4 m ρ c).trans (feat4_eq m c)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c)⟩)

end Cert.KernelIdeal.Chain

end
-- ==== Proof.ReferenceHost.lean ====
/-
  The host side of the graph convolution, as the printed program spells it.

  The edge list is a 2 × 1600000 integer array: row 0 the source node of each edge, row 1 the target node. A node's
  in-degree is the number of edges that target it (ones added at the targets), its inverse degree one over the larger
  of that and one. The neighbours' mean of a feature array gathers the source node's row for each edge (a negative
  index counted from the end), adds the gathered rows at the targets, and scales each node's row by its inverse
  degree. Layer l's weights and bias are slice l of the stacked arrays with the leading unit axis dropped.
-/
import proofs.«105063_j23124103922158_1_alg».proof.Proof.Gen.ReferenceIdeal
import Idealize.ShloMosaic.PureOps.Ideal

noncomputable section

namespace Cert.ReferenceIdeal.Net

open Cert.ReferenceIdeal Cert.ReferenceIdeal.Facts₀ Idealize.ShloMosaic Idealize.ShloMosaic.TcCoe

abbrev Edges : Type := (⟨S2x1600000, .i32⟩ : BufTy).Contents (Elt Ideal)
abbrev Ends : Type := (⟨S1600000, .i32⟩ : BufTy).Contents (Elt Ideal)
abbrev Col : Type := (⟨S100000x1, .f32⟩ : BufTy).Contents (Elt Ideal)
abbrev Feat : Type := (⟨S100000x128, .f32⟩ : BufTy).Contents (Elt Ideal)
abbrev Wts : Type := (⟨S4x128x128, .f32⟩ : BufTy).Contents (Elt Ideal)
abbrev Wt : Type := (⟨S128x128, .f32⟩ : BufTy).Contents (Elt Ideal)
abbrev Bss : Type := (⟨S4x128, .f32⟩ : BufTy).Contents (Elt Ideal)
abbrev Bs : Type := (⟨S128, .f32⟩ : BufTy).Contents (Elt Ideal)

/-- The source node of each edge. -/
def srcOf (e : Edges) : Ends :=
  shapeCast _ (extractStridedSlice S1x1600000 ![0, 0] e slices_S2x1600000_S1x1600000_0_0) shapeCasts_S1x1600000_S1600000

/-- The target node of each edge. -/
def dstOf (e : Edges) : Ends :=
  shapeCast _ (extractStridedSlice S1x1600000 ![1, 0] e slices_S2x1600000_S1x1600000_1_0) shapeCasts_S1x1600000_S1600000

/-- One over the larger of a node's in-degree and one, as a column. -/
def invOf (d : Ends) : Col :=
  broadcastInDim S100000x1 ![0] bcast_S100000_S100000x1_0
    (Host.divf (F := Ideal) (broadcastInDim S100000 ![] bcast_S_S100000 (constant (F := Ideal) S_ .f32 0x3F800000#32))
      (maximumf (Host.scatterAdd (F := Ideal) scatter_S100000_S1600000x1_S1600000_n_0_0_1
          (broadcastInDim S100000 ![] bcast_S_S100000 (constant (F := Ideal) S_ .f32 0x00000000#32))
          (broadcastInDim S1600000x1 ![0] bcast_S1600000_S1600000x1_0 d)
          (broadcastInDim S1600000 ![] bcast_S_S1600000 (constant (F := Ideal) S_ .f32 0x3F800000#32)))
        (broadcastInDim S100000 ![] bcast_S_S100000 (constant (F := Ideal) S_ .f32 0x3F800000#32))))

/-- The neighbours' mean of the rows of h, from the edges' ends and the inverse degrees. -/
def meanOf (s d : Ends) (inv : Col) (h : Feat) : Feat :=
  mulf (Host.scatterAdd (F := Ideal) scatter_S100000x128_S1600000x1_S1600000x128_1_0_0_1
      (broadcastInDim S100000x128 ![] bcast_S_S100000x128 (constant (F := Ideal) S_ .f32 0x00000000#32))
      (broadcastInDim S1600000x1 ![0] bcast_S1600000_S1600000x1_0 d)
      (Host.gather gather_S100000x128_S1600000x1_S1600000x128_1_0_n_n_0_1_1128 h
        (broadcastInDim S1600000x1 ![0] bcast_S1600000_S1600000x1_0
          (select (cmpi .slt s (broadcastInDim S1600000 ![] bcast_S_S1600000 (constantI S_ 32 0#32)))
            (addi s (broadcastInDim S1600000 ![] bcast_S_S1600000 (constantI S_ 32 100000#32))) s))))
    (broadcastInDim S100000x128 ![0, 1] bcast_S100000x1_S100000x128_0_1 inv)

/-- The neighbours' mean over the graph the edge list describes. -/
def mean (e : Edges) (h : Feat) : Feat := meanOf (srcOf e) (dstOf e) (invOf (dstOf e)) h

/-- Layer 0's weights out of a stack of four. -/
def wAt0 (w : Wts) : Wt :=
  shapeCast _ (extractStridedSlice S1x128x128 ![0, 0, 0] w slices_S4x128x128_S1x128x128_0_0_0) shapeCasts_S1x128x128_S128x128

/-- Layer 0's bias out of a stack of four. -/
def bAt0 (b : Bss) : Bs :=
  shapeCast _ (extractStridedSlice S1x128 ![0, 0] b slices_S4x128_S1x128_0_0) shapeCasts_S1x128_S128

/-- Layer 1's weights out of a stack of four. -/
def wAt1 (w : Wts) : Wt :=
  shapeCast _ (extractStridedSlice S1x128x128 ![1, 0, 0] w slices_S4x128x128_S1x128x128_1_0_0) shapeCasts_S1x128x128_S128x128

/-- Layer 1's bias out of a stack of four. -/
def bAt1 (b : Bss) : Bs :=
  shapeCast _ (extractStridedSlice S1x128 ![1, 0] b slices_S4x128_S1x128_1_0) shapeCasts_S1x128_S128

/-- Layer 2's weights out of a stack of four. -/
def wAt2 (w : Wts) : Wt :=
  shapeCast _ (extractStridedSlice S1x128x128 ![2, 0, 0] w slices_S4x128x128_S1x128x128_2_0_0) shapeCasts_S1x128x128_S128x128

/-- Layer 2's bias out of a stack of four. -/
def bAt2 (b : Bss) : Bs :=
  shapeCast _ (extractStridedSlice S1x128 ![2, 0] b slices_S4x128_S1x128_2_0) shapeCasts_S1x128_S128

/-- Layer 3's weights out of a stack of four. -/
def wAt3 (w : Wts) : Wt :=
  shapeCast _ (extractStridedSlice S1x128x128 ![3, 0, 0] w slices_S4x128x128_S1x128x128_3_0_0) shapeCasts_S1x128x128_S128x128

/-- Layer 3's bias out of a stack of four. -/
def bAt3 (b : Bss) : Bs :=
  shapeCast _ (extractStridedSlice S1x128 ![3, 0] b slices_S4x128_S1x128_3_0) shapeCasts_S1x128_S128

end Cert.ReferenceIdeal.Net

end
-- ==== Proof.ReferenceNet.lean ====
/-
  The reference program, read as the network.

  The reference is one straight line of host operations. Its input layer is the general product of the features and the
  embedding weights, the bias placed by two broadcasts, and the rectifier; each of its four convolution layers is the
  product of the neighbours' mean with slice l of the left weights, then the bias, then the product of the previous
  features with slice l of the right weights, then the rectifier. Entry by entry these are the input layer and the
  convolution layer of the extended reals (the bias moved past the second product), so the result is the network of the
  arguments with the reference's own spelling of the neighbours' mean and of the slices.
-/
import proofs.«105063_j23124103922158_1_alg».proof.Proof.Gen.ReferenceIdeal.Read
import proofs.«105063_j23124103922158_1_alg».proof.Proof.SageLayer
import proofs.«105063_j23124103922158_1_alg».proof.Proof.ReferenceHost

set_option maxRecDepth 16384

noncomputable section

open Idealize.ShloMosaic Idealize.ShloMosaic.TcCoe Idealize.ShloMosaic.ValueIdx

namespace Cert.ReferenceIdeal.Net

open Cert.ReferenceIdeal Cert.ReferenceIdeal.Facts₀ Cert.ReferenceIdeal.Read

/-- The reference's input layer, entry by entry. -/
theorem embed_eq (x0 : (⟨S100000x300, .f32⟩ : BufTy).Contents (Elt Ideal)) (x2 : (⟨S300x128, .f32⟩ : BufTy).Contents (Elt Ideal))
    (x3 : (⟨S128, .f32⟩ : BufTy).Contents (Elt Ideal)) :
    val_main_v17 (F := Ideal) x0 x2 x3 = Cert.RectLayers.dense x0 x2 x3 := by
  funext i
  obtain ⟨p, q, rfl⟩ : ∃ (p : Fin 100000) (q : Fin 128), i = ix2 p q := ⟨i 0, i 1, eq_ix2 i⟩
  rw [Cert.RectLayers.dense_ix2]
  unfold val_main_v17 val_main_v16 val_main_v15 val_main_v14 val_main_v13 val_main_call0_v0 val_main_call0_cst
  exact Cert.RectLayers.host_dense_apply dot_S100000x300_S300x128_S100000x128_1_0_0_1_n_n rfl rfl rfl rfl rfl rfl rfl rfl none
    x0 x2 x3 bcast_S128_S1x128_1 bcast_S1x128_S100000x128_0_1 _ bcast_S_S100000x128 p q

/-- Layer 1 of the reference, entry by entry: the convolution layer of its aggregate, the previous layer's features,
    slice 0 of the two weight stacks and slice 0 of the biases. -/
theorem layer1_eq (x0 : (⟨S100000x300, .f32⟩ : BufTy).Contents (Elt Ideal)) (x1 : (⟨S2x1600000, .i32⟩ : BufTy).Contents (Elt Ideal)) (x2 : (⟨S300x128, .f32⟩ : BufTy).Contents (Elt Ideal)) (x3 : (⟨S128, .f32⟩ : BufTy).Contents (Elt Ideal)) (x4 : (⟨S4x128x128, .f32⟩ : BufTy).Contents (Elt Ideal)) (x5 : (⟨S4x128, .f32⟩ : BufTy).Contents (Elt Ideal)) (x6 : (⟨S4x128x128, .f32⟩ : BufTy).Contents (Elt Ideal)) :
    val_main_v42 (F := Ideal) x0 x1 x2 x3 x4 x5 x6
      = Cert.RectLayers.combine (val_main_v29 (F := Ideal) x0 x1 x2 x3) (val_main_v17 (F := Ideal) x0 x2 x3)
          (val_main_v31 (F := Ideal) x4) (val_main_v39 (F := Ideal) x6) (val_main_v34 (F := Ideal) x5) := by
  funext i
  obtain ⟨p, q, rfl⟩ : ∃ (p : Fin 100000) (q : Fin 128), i = ix2 p q := ⟨i 0, i 1, eq_ix2 i⟩
  rw [Cert.RectLayers.combine_ix2]
  unfold val_main_v42 val_main_v41 val_main_v40 val_main_v37 val_main_v36 val_main_v35 val_main_v32 val_main_call1_v0 val_main_call1_cst
  exact Cert.RectLayers.host_combine_apply dot_S100000x128_S128x128_S100000x128_1_0_0_1_n_n rfl rfl rfl rfl rfl rfl rfl rfl none
    (val_main_v29 (F := Ideal) x0 x1 x2 x3) (val_main_v17 (F := Ideal) x0 x2 x3)
    (val_main_v31 (F := Ideal) x4) (val_main_v39 (F := Ideal) x6) (val_main_v34 (F := Ideal) x5)
    bcast_S128_S1x128_1 bcast_S1x128_S100000x128_0_1 _ bcast_S_S100000x128 p q

/-- Layer 1's aggregate is the neighbours' mean of the previous layer's features. -/
theorem mean1_eq (x0 : (⟨S100000x300, .f32⟩ : BufTy).Contents (Elt Ideal)) (x1 : (⟨S2x1600000, .i32⟩ : BufTy).Contents (Elt Ideal)) (x2 : (⟨S300x128, .f32⟩ : BufTy).Contents (Elt Ideal)) (x3 : (⟨S128, .f32⟩ : BufTy).Contents (Elt Ideal)) :
    val_main_v29 (F := Ideal) x0 x1 x2 x3 = mean x1 (val_main_v17 (F := Ideal) x0 x2 x3) := rfl

theorem wl1_eq (x4 : (⟨S4x128x128, .f32⟩ : BufTy).Contents (Elt Ideal)) : val_main_v31 (F := Ideal) x4 = wAt0 x4 := rfl
theorem wr1_eq (x6 : (⟨S4x128x128, .f32⟩ : BufTy).Contents (Elt Ideal)) : val_main_v39 (F := Ideal) x6 = wAt0 x6 := rfl
theorem b1_eq (x5 : (⟨S4x128, .f32⟩ : BufTy).Contents (Elt Ideal)) : val_main_v34 (F := Ideal) x5 = bAt0 x5 := rfl

/-- Layer 2 of the reference, entry by entry: the convolution layer of its aggregate, the previous layer's features,
    slice 1 of the two weight stacks and slice 1 of the biases. -/
theorem layer2_eq (x0 : (⟨S100000x300, .f32⟩ : BufTy).Contents (Elt Ideal)) (x1 : (⟨S2x1600000, .i32⟩ : BufTy).Contents (Elt Ideal)) (x2 : (⟨S300x128, .f32⟩ : BufTy).Contents (Elt Ideal)) (x3 : (⟨S128, .f32⟩ : BufTy).Contents (Elt Ideal)) (x4 : (⟨S4x128x128, .f32⟩ : BufTy).Contents (Elt Ideal)) (x5 : (⟨S4x128, .f32⟩ : BufTy).Contents (Elt Ideal)) (x6 : (⟨S4x128x128, .f32⟩ : BufTy).Contents (Elt Ideal)) :
    val_main_v67 (F := Ideal) x0 x1 x2 x3 x4 x5 x6
      = Cert.RectLayers.combine (val_main_v54 (F := Ideal) x0 x1 x2 x3 x4 x5 x6) (val_main_v42 (F := Ideal) x0 x1 x2 x3 x4 x5 x6)
          (val_main_v56 (F := Ideal) x4) (val_main_v64 (F := Ideal) x6) (val_main_v59 (F := Ideal) x5) := by
  funext i
  obtain ⟨p, q, rfl⟩ : ∃ (p : Fin 100000) (q : Fin 128), i = ix2 p q := ⟨i 0, i 1, eq_ix2 i⟩
  rw [Cert.RectLayers.combine_ix2]
  unfold val_main_v67 val_main_v66 val_main_v65 val_main_v62 val_main_v61 val_main_v60 val_main_v57 val_main_call2_v0 val_main_call2_cst
  exact Cert.RectLayers.host_combine_apply dot_S100000x128_S128x128_S100000x128_1_0_0_1_n_n rfl rfl rfl rfl rfl rfl rfl rfl none
    (val_main_v54 (F := Ideal) x0 x1 x2 x3 x4 x5 x6) (val_main_v42 (F := Ideal) x0 x1 x2 x3 x4 x5 x6)
    (val_main_v56 (F := Ideal) x4) (val_main_v64 (F := Ideal) x6) (val_main_v59 (F := Ideal) x5)
    bcast_S128_S1x128_1 bcast_S1x128_S100000x128_0_1 _ bcast_S_S100000x128 p q

/-- Layer 2's aggregate is the neighbours' mean of the previous layer's features. -/
theorem mean2_eq (x0 : (⟨S100000x300, .f32⟩ : BufTy).Contents (Elt Ideal)) (x1 : (⟨S2x1600000, .i32⟩ : BufTy).Contents (Elt Ideal)) (x2 : (⟨S300x128, .f32⟩ : BufTy).Contents (Elt Ideal)) (x3 : (⟨S128, .f32⟩ : BufTy).Contents (Elt Ideal)) (x4 : (⟨S4x128x128, .f32⟩ : BufTy).Contents (Elt Ideal)) (x5 : (⟨S4x128, .f32⟩ : BufTy).Contents (Elt Ideal)) (x6 : (⟨S4x128x128, .f32⟩ : BufTy).Contents (Elt Ideal)) :
    val_main_v54 (F := Ideal) x0 x1 x2 x3 x4 x5 x6 = mean x1 (val_main_v42 (F := Ideal) x0 x1 x2 x3 x4 x5 x6) := rfl

theorem wl2_eq (x4 : (⟨S4x128x128, .f32⟩ : BufTy).Contents (Elt Ideal)) : val_main_v56 (F := Ideal) x4 = wAt1 x4 := rfl
theorem wr2_eq (x6 : (⟨S4x128x128, .f32⟩ : BufTy).Contents (Elt Ideal)) : val_main_v64 (F := Ideal) x6 = wAt1 x6 := rfl
theorem b2_eq (x5 : (⟨S4x128, .f32⟩ : BufTy).Contents (Elt Ideal)) : val_main_v59 (F := Ideal) x5 = bAt1 x5 := rfl

/-- Layer 3 of the reference, entry by entry: the convolution layer of its aggregate, the previous layer's features,
    slice 2 of the two weight stacks and slice 2 of the biases. -/
theorem layer3_eq (x0 : (⟨S100000x300, .f32⟩ : BufTy).Contents (Elt Ideal)) (x1 : (⟨S2x1600000, .i32⟩ : BufTy).Contents (Elt Ideal)) (x2 : (⟨S300x128, .f32⟩ : BufTy).Contents (Elt Ideal)) (x3 : (⟨S128, .f32⟩ : BufTy).Contents (Elt Ideal)) (x4 : (⟨S4x128x128, .f32⟩ : BufTy).Contents (Elt Ideal)) (x5 : (⟨S4x128, .f32⟩ : BufTy).Contents (Elt Ideal)) (x6 : (⟨S4x128x128, .f32⟩ : BufTy).Contents (Elt Ideal)) :
    val_main_v92 (F := Ideal) x0 x1 x2 x3 x4 x5 x6
      = Cert.RectLayers.combine (val_main_v79 (F := Ideal) x0 x1 x2 x3 x4 x5 x6) (val_main_v67 (F := Ideal) x0 x1 x2 x3 x4 x5 x6)
          (val_main_v81 (F := Ideal) x4) (val_main_v89 (F := Ideal) x6) (val_main_v84 (F := Ideal) x5) := by
  funext i
  obtain ⟨p, q, rfl⟩ : ∃ (p : Fin 100000) (q : Fin 128), i = ix2 p q := ⟨i 0, i 1, eq_ix2 i⟩
  rw [Cert.RectLayers.combine_ix2]
  unfold val_main_v92 val_main_v91 val_main_v90 val_main_v87 val_main_v86 val_main_v85 val_main_v82 val_main_call3_v0 val_main_call3_cst
  exact Cert.RectLayers.host_combine_apply dot_S100000x128_S128x128_S100000x128_1_0_0_1_n_n rfl rfl rfl rfl rfl rfl rfl rfl none
    (val_main_v79 (F := Ideal) x0 x1 x2 x3 x4 x5 x6) (val_main_v67 (F := Ideal) x0 x1 x2 x3 x4 x5 x6)
    (val_main_v81 (F := Ideal) x4) (val_main_v89 (F := Ideal) x6) (val_main_v84 (F := Ideal) x5)
    bcast_S128_S1x128_1 bcast_S1x128_S100000x128_0_1 _ bcast_S_S100000x128 p q

/-- Layer 3's aggregate is the neighbours' mean of the previous layer's features. -/
theorem mean3_eq (x0 : (⟨S100000x300, .f32⟩ : BufTy).Contents (Elt Ideal)) (x1 : (⟨S2x1600000, .i32⟩ : BufTy).Contents (Elt Ideal)) (x2 : (⟨S300x128, .f32⟩ : BufTy).Contents (Elt Ideal)) (x3 : (⟨S128, .f32⟩ : BufTy).Contents (Elt Ideal)) (x4 : (⟨S4x128x128, .f32⟩ : BufTy).Contents (Elt Ideal)) (x5 : (⟨S4x128, .f32⟩ : BufTy).Contents (Elt Ideal)) (x6 : (⟨S4x128x128, .f32⟩ : BufTy).Contents (Elt Ideal)) :
    val_main_v79 (F := Ideal) x0 x1 x2 x3 x4 x5 x6 = mean x1 (val_main_v67 (F := Ideal) x0 x1 x2 x3 x4 x5 x6) := rfl

theorem wl3_eq (x4 : (⟨S4x128x128, .f32⟩ : BufTy).Contents (Elt Ideal)) : val_main_v81 (F := Ideal) x4 = wAt2 x4 := rfl
theorem wr3_eq (x6 : (⟨S4x128x128, .f32⟩ : BufTy).Contents (Elt Ideal)) : val_main_v89 (F := Ideal) x6 = wAt2 x6 := rfl
theorem b3_eq (x5 : (⟨S4x128, .f32⟩ : BufTy).Contents (Elt Ideal)) : val_main_v84 (F := Ideal) x5 = bAt2 x5 := rfl

/-- Layer 4 of the reference, entry by entry: the convolution layer of its aggregate, the previous layer's features,
    slice 3 of the two weight stacks and slice 3 of the biases. -/
theorem layer4_eq (x0 : (⟨S100000x300, .f32⟩ : BufTy).Contents (Elt Ideal)) (x1 : (⟨S2x1600000, .i32⟩ : BufTy).Contents (Elt Ideal)) (x2 : (⟨S300x128, .f32⟩ : BufTy).Contents (Elt Ideal)) (x3 : (⟨S128, .f32⟩ : BufTy).Contents (Elt Ideal)) (x4 : (⟨S4x128x128, .f32⟩ : BufTy).Contents (Elt Ideal)) (x5 : (⟨S4x128, .f32⟩ : BufTy).Contents (Elt Ideal)) (x6 : (⟨S4x128x128, .f32⟩ : BufTy).Contents (Elt Ideal)) :
    val_main_v117 (F := Ideal) x0 x1 x2 x3 x4 x5 x6
      = Cert.RectLayers.combine (val_main_v104 (F := Ideal) x0 x1 x2 x3 x4 x5 x6) (val_main_v92 (F := Ideal) x0 x1 x2 x3 x4 x5 x6)
          (val_main_v106 (F := Ideal) x4) (val_main_v114 (F := Ideal) x6) (val_main_v109 (F := Ideal) x5) := by
  funext i
  obtain ⟨p, q, rfl⟩ : ∃ (p : Fin 100000) (q : Fin 128), i = ix2 p q := ⟨i 0, i 1, eq_ix2 i⟩
  rw [Cert.RectLayers.combine_ix2]
  unfold val_main_v117 val_main_v116 val_main_v115 val_main_v112 val_main_v111 val_main_v110 val_main_v107 val_main_call4_v0 val_main_call4_cst
  exact Cert.RectLayers.host_combine_apply dot_S100000x128_S128x128_S100000x128_1_0_0_1_n_n rfl rfl rfl rfl rfl rfl rfl rfl none
    (val_main_v104 (F := Ideal) x0 x1 x2 x3 x4 x5 x6) (val_main_v92 (F := Ideal) x0 x1 x2 x3 x4 x5 x6)
    (val_main_v106 (F := Ideal) x4) (val_main_v114 (F := Ideal) x6) (val_main_v109 (F := Ideal) x5)
    bcast_S128_S1x128_1 bcast_S1x128_S100000x128_0_1 _ bcast_S_S100000x128 p q

/-- Layer 4's aggregate is the neighbours' mean of the previous layer's features. -/
theorem mean4_eq (x0 : (⟨S100000x300, .f32⟩ : BufTy).Contents (Elt Ideal)) (x1 : (⟨S2x1600000, .i32⟩ : BufTy).Contents (Elt Ideal)) (x2 : (⟨S300x128, .f32⟩ : BufTy).Contents (Elt Ideal)) (x3 : (⟨S128, .f32⟩ : BufTy).Contents (Elt Ideal)) (x4 : (⟨S4x128x128, .f32⟩ : BufTy).Contents (Elt Ideal)) (x5 : (⟨S4x128, .f32⟩ : BufTy).Contents (Elt Ideal)) (x6 : (⟨S4x128x128, .f32⟩ : BufTy).Contents (Elt Ideal)) :
    val_main_v104 (F := Ideal) x0 x1 x2 x3 x4 x5 x6 = mean x1 (val_main_v92 (F := Ideal) x0 x1 x2 x3 x4 x5 x6) := rfl

theorem wl4_eq (x4 : (⟨S4x128x128, .f32⟩ : BufTy).Contents (Elt Ideal)) : val_main_v106 (F := Ideal) x4 = wAt3 x4 := rfl
theorem wr4_eq (x6 : (⟨S4x128x128, .f32⟩ : BufTy).Contents (Elt Ideal)) : val_main_v114 (F := Ideal) x6 = wAt3 x6 := rfl
theorem b4_eq (x5 : (⟨S4x128, .f32⟩ : BufTy).Contents (Elt Ideal)) : val_main_v109 (F := Ideal) x5 = bAt3 x5 := rfl

/-- The reference's result is the network of its arguments. -/
theorem result_eq (x0 : (⟨S100000x300, .f32⟩ : BufTy).Contents (Elt Ideal)) (x1 : (⟨S2x1600000, .i32⟩ : BufTy).Contents (Elt Ideal)) (x2 : (⟨S300x128, .f32⟩ : BufTy).Contents (Elt Ideal)) (x3 : (⟨S128, .f32⟩ : BufTy).Contents (Elt Ideal)) (x4 : (⟨S4x128x128, .f32⟩ : BufTy).Contents (Elt Ideal)) (x5 : (⟨S4x128, .f32⟩ : BufTy).Contents (Elt Ideal)) (x6 : (⟨S4x128x128, .f32⟩ : BufTy).Contents (Elt Ideal)) :
    val_main_v117 (F := Ideal) x0 x1 x2 x3 x4 x5 x6
      = Cert.Sage.net (mean x1) (Cert.RectLayers.dense x0 x2 x3) (wAt0 x4) (wAt0 x6) (bAt0 x5) (wAt1 x4) (wAt1 x6) (bAt1 x5)
          (wAt2 x4) (wAt2 x6) (bAt2 x5) (wAt3 x4) (wAt3 x6) (bAt3 x5) := by
  rw [layer4_eq, mean4_eq, wl4_eq, wr4_eq, b4_eq, layer3_eq, mean3_eq, wl3_eq, wr3_eq, b3_eq, layer2_eq, mean2_eq, wl2_eq,
    wr2_eq, b2_eq, layer1_eq, mean1_eq, wl1_eq, wr1_eq, b1_eq, embed_eq]
  rfl

end Cert.ReferenceIdeal.Net

end
-- ==== Proof.lean ====
/-
  A four-layer mean-aggregating graph convolution network on 100000 nodes with 128 features and 1600000 edges:
  the kernel program (the input layer and each convolution layer a tiled launch, the gathers and the additions at the
  targets on the host between them) against the reference (one straight line of host operations).

  At the exact values both compute, from the same arguments, the same network. The host operations between the launches
  are the reference's own, operation for operation: the edges' sources and targets, the inverse degrees, the gather of
  the sources' rows, their sum at the targets scaled by the inverse degree, the slices of the stacked weights. Each
  launch computes, 5000 rows at a time, the layer the reference computes on whole arrays: the matrix unit's product into
  a zero tile is the host's general product (one finite sum, no order), the changes of float format are the identity, the
  rectifier is the larger of the entry and zero on both sides. The one difference is where a convolution layer adds its
  bias — after both products in the kernel, between them in the reference — and addition of extended reals is
  commutative and associative whatever is infinite. So the precondition is not used for the values: every law here holds
  at infinities too.

  The kernel program's frames are the generated ones; the reference's frame is its generated run with the result
  dropped; the idealization rewrote nothing, so that conjunct is trivial.
-/
import proofs.«105063_j23124103922158_1_alg».proof.Defs
import proofs.«105063_j23124103922158_1_alg».proof.Proof.Gen.Kernel
import proofs.«105063_j23124103922158_1_alg».proof.Proof.Gen.Kernel.Skeleton
import proofs.«105063_j23124103922158_1_alg».proof.Proof.Gen.Kernel.Launch
import proofs.«105063_j23124103922158_1_alg».proof.Proof.Gen.Kernel.Points
import proofs.«105063_j23124103922158_1_alg».proof.Proof.Gen.Kernel.Frame
import proofs.«105063_j23124103922158_1_alg».proof.Proof.Gen.KernelIdeal
import proofs.«105063_j23124103922158_1_alg».proof.Proof.Gen.KernelIdeal.Skeleton
import proofs.«105063_j23124103922158_1_alg».proof.Proof.Gen.KernelIdeal.Launch
import proofs.«105063_j23124103922158_1_alg».proof.Proof.Gen.KernelIdeal.Points
import proofs.«105063_j23124103922158_1_alg».proof.Proof.Gen.KernelIdeal.Frame
import proofs.«105063_j23124103922158_1_alg».proof.Proof.Gen.ReferenceIdeal
import proofs.«105063_j23124103922158_1_alg».proof.Proof.Gen.ReferenceIdeal.Run
import proofs.«105063_j23124103922158_1_alg».proof.Proof.Gen.ReferenceIdeal.Read
import proofs.«105063_j23124103922158_1_alg».proof.Proof.Gen.Pre_finite_inputs
import proofs.«105063_j23124103922158_1_alg».proof.Proof.KernelChain
import proofs.«105063_j23124103922158_1_alg».proof.Proof.ReferenceNet
import Idealize.ShloMosaic.Adequacy
import Idealize.ShloMosaic.Init

noncomputable section

namespace Cert.Proof

open Idealize.ShloMosaic Idealize.SL.Sem

/-! ## The two programs spell the host side alike -/

theorem mean_agree : Cert.ReferenceIdeal.Net.mean = Cert.KernelIdeal.Net.mean := rfl
theorem w0_agree : Cert.ReferenceIdeal.Net.wAt0 = Cert.KernelIdeal.Net.wAt0 := rfl
theorem w1_agree : Cert.ReferenceIdeal.Net.wAt1 = Cert.KernelIdeal.Net.wAt1 := rfl
theorem w2_agree : Cert.ReferenceIdeal.Net.wAt2 = Cert.KernelIdeal.Net.wAt2 := rfl
theorem w3_agree : Cert.ReferenceIdeal.Net.wAt3 = Cert.KernelIdeal.Net.wAt3 := rfl
theorem b0_agree : Cert.ReferenceIdeal.Net.bAt0 = Cert.KernelIdeal.Net.bAt0 := rfl
theorem b1_agree : Cert.ReferenceIdeal.Net.bAt1 = Cert.KernelIdeal.Net.bAt1 := rfl
theorem b2_agree : Cert.ReferenceIdeal.Net.bAt2 = Cert.KernelIdeal.Net.bAt2 := rfl
theorem b3_agree : Cert.ReferenceIdeal.Net.bAt3 = Cert.KernelIdeal.Net.bAt3 := rfl

/-! ## The claims -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments, the kernel program's result array ends at the network of its arguments
    (the run through the five launches) and the reference's at the network of its own (the generated run, read layer by
    layer): one array. -/
theorem algebraic : Cert.algebraic_KernelIdeal_ReferenceIdeal := by
  intro m ρ m' ρ' _ hagree
  refine ⟨fun c => Cert.KernelIdeal.Chain.result m c, Cert.KernelIdeal.Chain.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  rw [Cert.ReferenceIdeal.Read.val_main_v117_eq, Cert.ReferenceIdeal.Net.result_eq, a0, a1, a2, a3, a4, a5, a6, mean_agree,
    w0_agree, w1_agree, w2_agree, w3_agree, b0_agree, b1_agree, b2_agree, b3_agree]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
